-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x161 : Shape := ⟨2, ![16384, 161]⟩
abbrev S161x256 : Shape := ⟨2, ![161, 256]⟩
abbrev S256 : Shape := ⟨1, ![256]⟩
abbrev S256x132 : Shape := ⟨2, ![256, 132]⟩
abbrev S132 : Shape := ⟨1, ![132]⟩
abbrev S256x46 : Shape := ⟨2, ![256, 46]⟩
abbrev S46 : Shape := ⟨1, ![46]⟩
abbrev S_ : Shape := ⟨0, ![]⟩

class Facts : Prop where
  bcast_S_S16384x161 : S_.BroadcastsInDim S16384x161 (![] : Fin 0 → Fin S16384x161.rank)
  reducesTo_S16384x161_S_d0_1 : S16384x161.ReducesTo [0, 1] S_
  h_S_ : 0 < S_.numel
  bcast_S_S161x256 : S_.BroadcastsInDim S161x256 (![] : Fin 0 → Fin S161x256.rank)
  reducesTo_S161x256_S_d0_1 : S161x256.ReducesTo [0, 1] S_
  bcast_S_S256 : S_.BroadcastsInDim S256 (![] : Fin 0 → Fin S256.rank)
  reducesTo_S256_S_d0 : S256.ReducesTo [0] S_
  bcast_S_S256x132 : S_.BroadcastsInDim S256x132 (![] : Fin 0 → Fin S256x132.rank)
  reducesTo_S256x132_S_d0_1 : S256x132.ReducesTo [0, 1] S_
  bcast_S_S132 : S_.BroadcastsInDim S132 (![] : Fin 0 → Fin S132.rank)
  reducesTo_S132_S_d0 : S132.ReducesTo [0] S_
  bcast_S_S256x46 : S_.BroadcastsInDim S256x46 (![] : Fin 0 → Fin S256x46.rank)
  reducesTo_S256x46_S_d0_1 : S256x46.ReducesTo [0, 1] S_
  bcast_S_S46 : S_.BroadcastsInDim S46 (![] : Fin 0 → Fin S46.rank)
  reducesTo_S46_S_d0 : S46.ReducesTo [0] S_

variable [Facts]

def fn_part1 {F : FTy → Type} [FloatOps F] (main_arg4 : FVec F S132 .f32) (main_arg5 : FVec F S256x46 .f32) (main_arg6 : FVec F S46 .f32) (main_v13 : IVec S_ 1) (main_v16 : IVec S256x132 1) : IVec S_ 1 :=
  let main_c_5 : IVec S_ 1 := constantI S_ 1 1#1
  let main_v17 : IVec S_ 1 := (fun x v => Host.reduce IntOp.andi x v reducesTo_S256x132_S_d0_1 h_S_) main_v16 main_c_5
  let main_v18 : IVec S_ 1 := andi main_v13 main_v17
  let main_v19 : FVec F S132 .f32 := Host.absf main_arg4
  let main_cst_6 : FVec F S_ .f32 := constant S_ .f32 0x7F800000#32
  let main_v20 : FVec F S132 .f32 := broadcastInDim S132 ![] bcast_S_S132 main_cst_6
  let main_v21 : IVec S132 1 := cmpf .olt main_v19 main_v20
  let main_c_7 : IVec S_ 1 := constantI S_ 1 1#1
  let main_v22 : IVec S_ 1 := (fun x v => Host.reduce IntOp.andi x v reducesTo_S132_S_d0 h_S_) main_v21 main_c_7
  let main_v23 : IVec S_ 1 := andi main_v18 main_v22
  let main_v24 : FVec F S256x46 .f32 := Host.absf main_arg5
  let main_cst_8 : FVec F S_ .f32 := constant S_ .f32 0x7F800000#32
  let main_v25 : FVec F S256x46 .f32 := broadcastInDim S256x46 ![] bcast_S_S256x46 main_cst_8
  let main_v26 : IVec S256x46 1 := cmpf .olt main_v24 main_v25
  let main_c_9 : IVec S_ 1 := constantI S_ 1 1#1
  let main_v27 : IVec S_ 1 := (fun x v => Host.reduce IntOp.andi x v reducesTo_S256x46_S_d0_1 h_S_) main_v26 main_c_9
  let main_v28 : IVec S_ 1 := andi main_v23 main_v27
  let main_v29 : FVec F S46 .f32 := Host.absf main_arg6
  let main_cst_10 : FVec F S_ .f32 := constant S_ .f32 0x7F800000#32
  let main_v30 : FVec F S46 .f32 := broadcastInDim S46 ![] bcast_S_S46 main_cst_10
  let main_v31 : IVec S46 1 := cmpf .olt main_v29 main_v30
  let main_c_11 : IVec S_ 1 := constantI S_ 1 1#1
  let main_v32 : IVec S_ 1 := (fun x v => Host.reduce IntOp.andi x v reducesTo_S46_S_d0 h_S_) main_v31 main_c_11
  let main_v33 : IVec S_ 1 := andi main_v28 main_v32
  main_v33

def fn {F : FTy → Type} [FloatOps F] (main_arg0 : FVec F S16384x161 .f32) (main_arg1 : FVec F S161x256 .f32) (main_arg2 : FVec F S256 .f32) (main_arg3 : FVec F S256x132 .f32) (main_arg4 : FVec F S132 .f32) (main_arg5 : FVec F S256x46 .f32) (main_arg6 : FVec F S46 .f32) : IVec S_ 1 :=
  let main_v0 : FVec F S16384x161 .f32 := Host.absf main_arg0
  let main_cst : FVec F S_ .f32 := constant S_ .f32 0x7F800000#32
  let main_v1 : FVec F S16384x161 .f32 := broadcastInDim S16384x161 ![] bcast_S_S16384x161 main_cst
  let main_v2 : IVec S16384x161 1 := cmpf .olt main_v0 main_v1
  let main_c : IVec S_ 1 := constantI S_ 1 1#1
  let main_v3 : IVec S_ 1 := (fun x v => Host.reduce IntOp.andi x v reducesTo_S16384x161_S_d0_1 h_S_) main_v2 main_c
  let main_v4 : FVec F S161x256 .f32 := Host.absf main_arg1
  let main_cst_0 : FVec F S_ .f32 := constant S_ .f32 0x7F800000#32
  let main_v5 : FVec F S161x256 .f32 := broadcastInDim S161x256 ![] bcast_S_S161x256 main_cst_0
  let main_v6 : IVec S161x256 1 := cmpf .olt main_v4 main_v5
  let main_c_1 : IVec S_ 1 := constantI S_ 1 1#1
  let main_v7 : IVec S_ 1 := (fun x v => Host.reduce IntOp.andi x v reducesTo_S161x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x132 .f32 := Host.absf main_arg3
  let main_cst_4 : FVec F S_ .f32 := constant S_ .f32 0x7F800000#32
  let main_v15 : FVec F S256x132 .f32 := broadcastInDim S256x132 ![] bcast_S_S256x132 main_cst_4
  let main_v16 : IVec S256x132 1 := cmpf .olt main_v14 main_v15
  fn_part1 (F := F) main_arg4 main_arg5 main_arg6 main_v13 main_v16
-- ==== Kernel.lean ====
abbrev S16384x161 : Shape := ⟨2, ![16384, 161]⟩
abbrev S161x256 : Shape := ⟨2, ![161, 256]⟩
abbrev S256 : Shape := ⟨1, ![256]⟩
abbrev S256x132 : Shape := ⟨2, ![256, 132]⟩
abbrev S132 : Shape := ⟨1, ![132]⟩
abbrev S256x46 : Shape := ⟨2, ![256, 46]⟩
abbrev S46 : Shape := ⟨1, ![46]⟩
abbrev S161x16384 : Shape := ⟨2, ![161, 16384]⟩
abbrev S132x256 : Shape := ⟨2, ![132, 256]⟩
abbrev S46x256 : Shape := ⟨2, ![46, 256]⟩
abbrev S256x1 : Shape := ⟨2, ![256, 1]⟩
abbrev S132x1 : Shape := ⟨2, ![132, 1]⟩
abbrev S46x1 : Shape := ⟨2, ![46, 1]⟩
abbrev S132x16384 : Shape := ⟨2, ![132, 16384]⟩
abbrev S23x16384 : Shape := ⟨2, ![23, 16384]⟩
abbrev S16384x132 : Shape := ⟨2, ![16384, 132]⟩
abbrev S16384x23 : Shape := ⟨2, ![16384, 23]⟩
abbrev S161x4096 : Shape := ⟨2, ![161, 4096]⟩
abbrev S132x4096 : Shape := ⟨2, ![132, 4096]⟩
abbrev S23x4096 : Shape := ⟨2, ![23, 4096]⟩
abbrev S256x4096 : Shape := ⟨2, ![256, 4096]⟩
abbrev S46x4096 : Shape := ⟨2, ![46, 4096]⟩

abbrev nBuf : Space → Nat
  | .hbm => 19
  | .vmem => 14
  | .smem => 0
  | _ => 0

abbrev bufTy : (tb : Table) → Fin (tcTables nBuf tb) → BufTy
  | .hbm, ⟨0, _⟩ => ⟨S16384x161, .f32⟩
  | .hbm, ⟨1, _⟩ => ⟨S161x256, .f32⟩
  | .hbm, ⟨2, _⟩ => ⟨S256, .f32⟩
  | .hbm, ⟨3, _⟩ => ⟨S256x132, .f32⟩
  | .hbm, ⟨4, _⟩ => ⟨S132, .f32⟩
  | .hbm, ⟨5, _⟩ => ⟨S256x46, .f32⟩
  | .hbm, ⟨6, _⟩ => ⟨S46, .f32⟩
  | .hbm, ⟨7, _⟩ => ⟨S161x16384, .f32⟩
  | .hbm, ⟨8, _⟩ => ⟨S132x256, .f32⟩
  | .hbm, ⟨9, _⟩ => ⟨S46x256, .f32⟩
  | .hbm, ⟨10, _⟩ => ⟨S256x1, .f32⟩
  | .hbm, ⟨11, _⟩ => ⟨S132x1, .f32⟩
  | .hbm, ⟨12, _⟩ => ⟨S46x1, .f32⟩
  | .hbm, ⟨13, _⟩ => ⟨S132x16384, .f32⟩
  | .hbm, ⟨14, _⟩ => ⟨S23x16384, .f32⟩
  | .hbm, ⟨15, _⟩ => ⟨S23x16384, .f32⟩
  | .hbm, ⟨16, _⟩ => ⟨S16384x132, .f32⟩
  | .hbm, ⟨17, _⟩ => ⟨S16384x23, .f32⟩
  | .hbm, ⟨18, _⟩ => ⟨S16384x23, .f32⟩
  | .local _ .vmem, ⟨0, _⟩ => ⟨S161x4096, .f32⟩
  | .local _ .vmem, ⟨1, _⟩ => ⟨S161x4096, .f32⟩
  | .local _ .vmem, ⟨2, _⟩ => ⟨S161x256, .f32⟩
  | .local _ .vmem, ⟨3, _⟩ => ⟨S256x1, .f32⟩
  | .local _ .vmem, ⟨4, _⟩ => ⟨S132x256, .f32⟩
  | .local _ .vmem, ⟨5, _⟩ => ⟨S132x1, .f32⟩
  | .local _ .vmem, ⟨6, _⟩ => ⟨S46x256, .f32⟩
  | .local _ .vmem, ⟨7, _⟩ => ⟨S46x1, .f32⟩
  | .local _ .vmem, ⟨8, _⟩ => ⟨S132x4096, .f32⟩
  | .local _ .vmem, ⟨9, _⟩ => ⟨S132x4096, .f32⟩
  | .local _ .vmem, ⟨10, _⟩ => ⟨S23x4096, .f32⟩
  | .local _ .vmem, ⟨11, _⟩ => ⟨S23x4096, .f32⟩
  | .local _ .vmem, ⟨12, _⟩ => ⟨S23x4096, .f32⟩
  | .local _ .vmem, ⟨13, _⟩ => ⟨S23x4096, .f32⟩
  | _, _ => ⟨S16384x161, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6_0 : Ref sig .tc := ⟨.hbm, 13, rfl⟩
abbrev main_call0_v6_1 : Ref sig .tc := ⟨.hbm, 14, rfl⟩
abbrev main_call0_v6_2 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S161x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S161x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S132x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S132x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S46x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S46x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S132x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S23x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S23x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S16384x161_S161x16384_1_0 : S16384x161.Transposes [1, 0] S161x16384
  transposes_S256x132_S132x256_1_0 : S256x132.Transposes [1, 0] S132x256
  transposes_S256x46_S46x256_1_0 : S256x46.Transposes [1, 0] S46x256
  shapeCasts_S256_S256x1 : S256.ShapeCasts S256x1
  shapeCasts_S132_S132x1 : S132.ShapeCasts S132x1
  shapeCasts_S46_S46x1 : S46.ShapeCasts S46x1
  transposes_S132x16384_S16384x132_1_0 : S132x16384.Transposes [1, 0] S16384x132
  transposes_S23x16384_S16384x23_1_0 : S23x16384.Transposes [1, 0] S16384x23
  inb_S161x256_S161x256_0_0 : ∀ a, (![0, 0] : Fin 2 → Nat) a + S161x256.size a ≤ S161x256.size a
  h_S161x256 : 0 < S161x256.numel
  inb_S161x4096_S161x4096_0_0 : ∀ a, (![0, 0] : Fin 2 → Nat) a + S161x4096.size a ≤ S161x4096.size a
  h_S161x4096 : 0 < S161x4096.numel
  shapeCasts_S161x4096_S161x4096 : S161x4096.ShapeCasts S161x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  inb_S132x256_S132x256_0_0 : ∀ a, (![0, 0] : Fin 2 → Nat) a + S132x256.size a ≤ S132x256.size a
  h_S132x256 : 0 < S132x256.numel
  shapeCasts_S132x256_S132x256 : S132x256.ShapeCasts S132x256
  inb_S132x1_S132x1_0_0 : ∀ a, (![0, 0] : Fin 2 → Nat) a + S132x1.size a ≤ S132x1.size a
  h_S132x1 : 0 < S132x1.numel
  shapeCasts_S132x1_S132x1 : S132x1.ShapeCasts S132x1
  broadcasts_S132x1_S132x4096 : S132x1.Broadcasts S132x4096
  inb_S132x4096_S132x4096_0_0 : ∀ a, (![0, 0] : Fin 2 → Nat) a + S132x4096.size a ≤ S132x4096.size a
  h_S132x4096 : 0 < S132x4096.numel
  inb_S46x256_S46x256_0_0 : ∀ a, (![0, 0] : Fin 2 → Nat) a + S46x256.size a ≤ S46x256.size a
  h_S46x256 : 0 < S46x256.numel
  shapeCasts_S46x256_S46x256 : S46x256.ShapeCasts S46x256
  inb_S46x1_S46x1_0_0 : ∀ a, (![0, 0] : Fin 2 → Nat) a + S46x1.size a ≤ S46x1.size a
  h_S46x1 : 0 < S46x1.numel
  shapeCasts_S46x1_S46x1 : S46x1.ShapeCasts S46x1
  broadcasts_S46x1_S46x4096 : S46x1.Broadcasts S46x4096
  slices_S46x4096_o0_0_S23x4096 : S46x4096.Slices ![0, 0] S23x4096
  inb_S23x4096_S23x4096_0_0 : ∀ a, (![0, 0] : Fin 2 → Nat) a + S23x4096.size a ≤ S23x4096.size a
  h_S23x4096 : 0 < S23x4096.numel
  slices_S46x4096_o23_0_S23x4096 : S46x4096.Slices ![23, 0] S23x4096
  dot_S161x256_S161x4096_S256x4096_0_0_1_1_n_n_wf : DotDims.WF S161x256 S161x4096 S256x4096 [0] [0] [1] [1] [] []
  dot_S132x256_S256x4096_S132x4096_1_0_0_1_n_n_wf : DotDims.WF S132x256 S256x4096 S132x4096 [1] [0] [0] [1] [] []
  dot_S46x256_S256x4096_S46x4096_1_0_0_1_n_n_wf : DotDims.WF S46x256 S256x4096 S46x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S161x4096.size a ≤ S161x16384.size a
  hwx0_0 : ∀ i : grid0.Coords, EltTy.bits .f32 = 32 ∨ (Rect.block (s := S161x16384) S161x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S161x256.size a ≤ S161x256.size a
  hwx0_1 : ∀ i : grid0.Coords, EltTy.bits .f32 = 32 ∨ (Rect.block (s := S161x256) S161x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S132x256.size a ≤ S132x256.size a
  hwx0_3 : ∀ i : grid0.Coords, EltTy.bits .f32 = 32 ∨ (Rect.block (s := S132x256) S132x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S132x1.size a ≤ S132x1.size a
  hwx0_4 : ∀ i : grid0.Coords, EltTy.bits .f32 = 32 ∨ (Rect.block (s := S132x1) S132x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S46x256.size a ≤ S46x256.size a
  hwx0_5 : ∀ i : grid0.Coords, EltTy.bits .f32 = 32 ∨ (Rect.block (s := S46x256) S46x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S46x1.size a ≤ S46x1.size a
  hwx0_6 : ∀ i : grid0.Coords, EltTy.bits .f32 = 32 ∨ (Rect.block (s := S46x1) S46x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S132x4096.size a ≤ S132x16384.size a
  hwx0_7 : ∀ i : grid0.Coords, EltTy.bits .f32 = 32 ∨ (Rect.block (s := S132x16384) S132x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S23x4096.size a ≤ S23x16384.size a
  hwx0_8 : ∀ i : grid0.Coords, EltTy.bits .f32 = 32 ∨ (Rect.block (s := S23x16384) S23x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S23x4096.size a ≤ S23x16384.size a
  hwx0_9 : ∀ i : grid0.Coords, EltTy.bits .f32 = 32 ∨ (Rect.block (s := S23x16384) S23x4096.size (cc0_transform_9 i) (hinb0_9 i)).WholeWords (EltTy.packing .f32)

variable [Facts₀]

def dot_S161x256_S161x4096_S256x4096_0_0_1_1_n_n : DotDims S161x256 S161x4096 S256x4096 where
  lhsContracting := [0]
  rhsContracting := [0]
  lhsNonContracting := [1]
  rhsNonContracting := [1]
  lhsBatch := []
  rhsBatch := []
  wf := dot_S161x256_S161x4096_S256x4096_0_0_1_1_n_n_wf
def dot_S132x256_S256x4096_S132x4096_1_0_0_1_n_n : DotDims S132x256 S256x4096 S132x4096 where
  lhsContracting := [1]
  rhsContracting := [0]
  lhsNonContracting := [0]
  rhsNonContracting := [1]
  lhsBatch := []
  rhsBatch := []
  wf := dot_S132x256_S256x4096_S132x4096_1_0_0_1_n_n_wf
def dot_S46x256_S256x4096_S46x4096_1_0_0_1_n_n : DotDims S46x256 S256x4096 S46x4096 where
  lhsContracting := [1]
  rhsContracting := [0]
  lhsNonContracting := [0]
  rhsNonContracting := [1]
  lhsBatch := []
  rhsBatch := []
  wf := dot_S46x256_S256x4096_S46x4096_1_0_0_1_n_n_wf

abbrev win0_0 : Pipeline.Window sig grid0 :=
  Pipeline.Window.ofSpec (Memref.whole main_call0_v0) S161x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S161x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S132x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S132x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S46x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v5) S46x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v6_0) S132x4096.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v6_1) S23x4096.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_call0_v6_2) S23x4096.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x161 : Shape := ⟨2, ![16384, 161]⟩
abbrev S161x256 : Shape := ⟨2, ![161, 256]⟩
abbrev S256 : Shape := ⟨1, ![256]⟩
abbrev S256x132 : Shape := ⟨2, ![256, 132]⟩
abbrev S132 : Shape := ⟨1, ![132]⟩
abbrev S256x46 : Shape := ⟨2, ![256, 46]⟩
abbrev S46 : Shape := ⟨1, ![46]⟩
abbrev S16384x256 : Shape := ⟨2, ![16384, 256]⟩
abbrev S1x256 : Shape := ⟨2, ![1, 256]⟩
abbrev S_ : Shape := ⟨0, ![]⟩
abbrev S16384x132 : Shape := ⟨2, ![16384, 132]⟩
abbrev S1x132 : Shape := ⟨2, ![1, 132]⟩
abbrev S16384x46 : Shape := ⟨2, ![16384, 46]⟩
abbrev S1x46 : Shape := ⟨2, ![1, 46]⟩
abbrev S16384x23 : Shape := ⟨2, ![16384, 23]⟩

abbrev nBuf : Space → Nat
  | .hbm => 44
  | .vmem => 0
  | .smem => 0
  | _ => 0

abbrev bufTy : (tb : Table) → Fin (tcTables nBuf tb) → BufTy
  | .hbm, ⟨0, _⟩ => ⟨S16384x161, .f32⟩
  | .hbm, ⟨1, _⟩ => ⟨S161x256, .f32⟩
  | .hbm, ⟨2, _⟩ => ⟨S256, .f32⟩
  | .hbm, ⟨3, _⟩ => ⟨S256x132, .f32⟩
  | .hbm, ⟨4, _⟩ => ⟨S132, .f32⟩
  | .hbm, ⟨5, _⟩ => ⟨S256x46, .f32⟩
  | .hbm, ⟨6, _⟩ => ⟨S46, .f32⟩
  | .hbm, ⟨7, _⟩ => ⟨S16384x256, .f32⟩
  | .hbm, ⟨8, _⟩ => ⟨S1x256, .f32⟩
  | .hbm, ⟨9, _⟩ => ⟨S16384x256, .f32⟩
  | .hbm, ⟨10, _⟩ => ⟨S16384x256, .f32⟩
  | .hbm, ⟨11, _⟩ => ⟨S_, .f32⟩
  | .hbm, ⟨12, _⟩ => ⟨S16384x256, .f32⟩
  | .hbm, ⟨13, _⟩ => ⟨S16384x256, .i1⟩
  | .hbm, ⟨14, _⟩ => ⟨S_, .f32⟩
  | .hbm, ⟨15, _⟩ => ⟨S16384x256, .f32⟩
  | .hbm, ⟨16, _⟩ => ⟨S16384x256, .f32⟩
  | .hbm, ⟨17, _⟩ => ⟨S16384x256, .f32⟩
  | .hbm, ⟨18, _⟩ => ⟨S16384x132, .f32⟩
  | .hbm, ⟨19, _⟩ => ⟨S1x132, .f32⟩
  | .hbm, ⟨20, _⟩ => ⟨S16384x132, .f32⟩
  | .hbm, ⟨21, _⟩ => ⟨S16384x132, .f32⟩
  | .hbm, ⟨22, _⟩ => ⟨S16384x46, .f32⟩
  | .hbm, ⟨23, _⟩ => ⟨S1x46, .f32⟩
  | .hbm, ⟨24, _⟩ => ⟨S16384x46, .f32⟩
  | .hbm, ⟨25, _⟩ => ⟨S16384x46, .f32⟩
  | .hbm, ⟨26, _⟩ => ⟨S16384x23, .f32⟩
  | .hbm, ⟨27, _⟩ => ⟨S16384x23, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16384x23, .f32⟩
  | .hbm, ⟨32, _⟩ => ⟨S16384x23, .f32⟩
  | .hbm, ⟨33, _⟩ => ⟨S_, .f32⟩
  | .hbm, ⟨34, _⟩ => ⟨S16384x23, .f32⟩
  | .hbm, ⟨35, _⟩ => ⟨S16384x23, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S16384x23, .f32⟩
  | .hbm, ⟨40, _⟩ => ⟨S16384x23, .f32⟩
  | .hbm, ⟨41, _⟩ => ⟨S_, .f32⟩
  | .hbm, ⟨42, _⟩ => ⟨S16384x23, .f32⟩
  | .hbm, ⟨43, _⟩ => ⟨S16384x23, .f32⟩
  | _, _ => ⟨S16384x161, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v19 : Ref sig .tc := ⟨.hbm, 35, rfl⟩
abbrev main_cst_3 : Ref sig .tc := ⟨.hbm, 36, rfl⟩
abbrev main_cst_4 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v20 : Ref sig .tc := ⟨.hbm, 43, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S132_S1x132_1 : S132.BroadcastsInDim S1x132 (![1] : Fin 1 → Fin S1x132.rank)
  bcast_S1x132_S16384x132_0_1 : S1x132.BroadcastsInDim S16384x132 (![0, 1] : Fin 2 → Fin S16384x132.rank)
  bcast_S46_S1x46_1 : S46.BroadcastsInDim S1x46 (![1] : Fin 1 → Fin S1x46.rank)
  bcast_S1x46_S16384x46_0_1 : S1x46.BroadcastsInDim S16384x46 (![0, 1] : Fin 2 → Fin S16384x46.rank)
  slices_S16384x46_S16384x23_0_0 : S16384x46.Slices ![0, 0] S16384x23
  slices_S16384x46_S16384x23_0_23 : S16384x46.Slices ![0, 23] S16384x23
  bcast_S_S16384x23 : S_.BroadcastsInDim S16384x23 (![] : Fin 0 → Fin S16384x23.rank)
  dot_S16384x161_S161x256_S16384x256_1_0_0_1_n_n_wf : DotDims.WF S16384x161 S161x256 S16384x256 [1] [0] [0] [1] [] []
  dot_S16384x256_S256x132_S16384x132_1_0_0_1_n_n_wf : DotDims.WF S16384x256 S256x132 S16384x132 [1] [0] [0] [1] [] []
  dot_S16384x256_S256x46_S16384x46_1_0_0_1_n_n_wf : DotDims.WF S16384x256 S256x46 S16384x46 [1] [0] [0] [1] [] []

variable [Facts₀]

def dot_S16384x161_S161x256_S16384x256_1_0_0_1_n_n : DotDims S16384x161 S161x256 S16384x256 where
  lhsContracting := [1]
  rhsContracting := [0]
  lhsNonContracting := [0]
  rhsNonContracting := [1]
  lhsBatch := []
  rhsBatch := []
  wf := dot_S16384x161_S161x256_S16384x256_1_0_0_1_n_n_wf
def dot_S16384x256_S256x132_S16384x132_1_0_0_1_n_n : DotDims S16384x256 S256x132 S16384x132 where
  lhsContracting := [1]
  rhsContracting := [0]
  lhsNonContracting := [0]
  rhsNonContracting := [1]
  lhsBatch := []
  rhsBatch := []
  wf := dot_S16384x256_S256x132_S16384x132_1_0_0_1_n_n_wf
def dot_S16384x256_S256x46_S16384x46_1_0_0_1_n_n : DotDims S16384x256 S256x46 S16384x46 where
  lhsContracting := [1]
  rhsContracting := [0]
  lhsNonContracting := [0]
  rhsNonContracting := [1]
  lhsBatch := []
  rhsBatch := []
  wf := dot_S16384x256_S256x46_S16384x46_1_0_0_1_n_n_wf

class Facts : Prop extends Facts₀ where

variable [Facts]
-- ==== Proof.Spec.lean ====
/-
  A two-layer policy network over the extended reals, as functions of its seven parameter arrays.

  With x : [16384, 161], W1 : [161, 256], b1 : [256], Wd : [256, 132], bd : [132], Wc : [256, 46], bc : [46]:

    hidden(n, j) = leaky( Σ_k x(n,k) · W1(k,j) + b1(j) )          leaky(a) = a if a ≥ 0, else s·a  (s the slope's float word)
    disc(n, d)   = Σ_j hidden(n,j) · Wd(j,d) + bd(d)
    cont(n, c)   = Σ_j hidden(n,j) · Wc(j,c) + bc(c)
    mean(n, c)   = min(1, max(-1, cont(n, c)))                     c < 23
    std(n, c)    = min(1, max( 0, cont(n, 23 + c)))                c < 23

  The same network written in the transposed arrangement — the batch index last, every product with the weight as the
  LEFT factor, the biases as columns — is the second family below (hiddenT, discT, contT, meanT, stdT), and the one law that
  joins the two arrangements is the commutativity of the product on the extended reals, applied under each sum
  (hiddenT_eq, discT_eq, contT_eq): no distributivity and no cancellation, so nothing here asks for finite entries.
-/
import Mathlib
import Idealize.ShloMosaic.PureOps.Ideal
import Idealize.ShloMosaic.Lib.ValueIdx

noncomputable section

namespace Cert.Mlp

open Idealize.ShloMosaic Idealize.ShloMosaic.ValueIdx
open scoped BigOperators

/-- A matrix of extended reals with literal extents. -/
abbrev Mat (a b : ℕ) : Type := (⟨2, ![a, b]⟩ : Shape).Idx → EReal
/-- A vector of extended reals with a literal extent. -/
abbrev Row (a : ℕ) : Type := (⟨1, ![a]⟩ : Shape).Idx → EReal

/-- The float words the network uses, read as extended reals. -/
abbrev zeroW : EReal := Ideal.ofBits .f32 0x00000000#32
abbrev slopeW : EReal := Ideal.ofBits .f32 0x3C23D70A#32
abbrev oneW : EReal := Ideal.ofBits .f32 0x3F800000#32
abbrev negOneW : EReal := Ideal.ofBits .f32 0xBF800000#32

/-- The leaky rectifier: the argument where it is at least zero, the slope times it elsewhere. -/
def leaky (a : EReal) : EReal := Scalar.select (Ideal.cmp .oge a zeroW) a (slopeW * a)

/-! ## The batch-first arrangement -/

/-- The hidden layer at sample n, unit j. -/
def hidden (x : Mat 16384 161) (W1 : Mat 161 256) (b1 : Row 256) (n : Fin 16384) (j : Fin 256) : EReal :=
  leaky ((∑ k : Fin 161, x (ix2 n k) * W1 (ix2 k j)) + b1 (ix1 j))

/-- The discrete head at sample n, output d. -/
def disc (x : Mat 16384 161) (W1 : Mat 161 256) (b1 : Row 256) (Wd : Mat 256 132) (bd : Row 132)
    (n : Fin 16384) (d : Fin 132) : EReal :=
  (∑ j : Fin 256, hidden x W1 b1 n j * Wd (ix2 j d)) + bd (ix1 d)

/-- The continuous head before clipping at sample n, output c. -/
def cont (x : Mat 16384 161) (W1 : Mat 161 256) (b1 : Row 256) (Wc : Mat 256 46) (bc : Row 46)
    (n : Fin 16384) (c : Fin 46) : EReal :=
  (∑ j : Fin 256, hidden x W1 b1 n j * Wc (ix2 j c)) + bc (ix1 c)

/-- The first 23 continuous outputs clipped to [-1, 1]. -/
def mean (x : Mat 16384 161) (W1 : Mat 161 256) (b1 : Row 256) (Wc : Mat 256 46) (bc : Row 46)
    (n : Fin 16384) (c : Fin 23) : EReal :=
  min oneW (max negOneW (cont x W1 b1 Wc bc n ⟨c.val, by omega⟩))

/-- The last 23 continuous outputs clipped to [0, 1]. -/
def std (x : Mat 16384 161) (W1 : Mat 161 256) (b1 : Row 256) (Wc : Mat 256 46) (bc : Row 46)
    (n : Fin 16384) (c : Fin 23) : EReal :=
  min oneW (max zeroW (cont x W1 b1 Wc bc n ⟨23 + c.val, by omega⟩))

/-! ## The batch-last arrangement -/

/-- The hidden layer from xᵀ : [161, 16384], W1 and the bias as a column [256, 1]: unit j, sample n. -/
def hiddenT (xT : Mat 161 16384) (W1 : Mat 161 256) (b1c : Mat 256 1) (j : Fin 256) (n : Fin 16384) : EReal :=
  leaky ((∑ k : Fin 161, W1 (ix2 k j) * xT (ix2 k n)) + b1c (ix2 j (0 : Fin 1)))

/-- The discrete head from Wdᵀ : [132, 256] and its bias column: output d, sample n. -/
def discT (xT : Mat 161 16384) (W1 : Mat 161 256) (b1c : Mat 256 1) (WdT : Mat 132 256) (bdc : Mat 132 1)
    (d : Fin 132) (n : Fin 16384) : EReal :=
  (∑ j : Fin 256, WdT (ix2 d j) * hiddenT xT W1 b1c j n) + bdc (ix2 d (0 : Fin 1))

/-- The continuous head before clipping from Wcᵀ : [46, 256] and its bias column: output c, sample n. -/
def contT (xT : Mat 161 16384) (W1 : Mat 161 256) (b1c : Mat 256 1) (WcT : Mat 46 256) (bcc : Mat 46 1)
    (c : Fin 46) (n : Fin 16384) : EReal :=
  (∑ j : Fin 256, WcT (ix2 c j) * hiddenT xT W1 b1c j n) + bcc (ix2 c (0 : Fin 1))

/-- Rows 0..22 of the continuous head clipped to [-1, 1]. -/
def meanT (xT : Mat 161 16384) (W1 : Mat 161 256) (b1c : Mat 256 1) (WcT : Mat 46 256) (bcc : Mat 46 1)
    (c : Fin 23) (n : Fin 16384) : EReal :=
  min oneW (max negOneW (contT xT W1 b1c WcT bcc ⟨c.val, by omega⟩ n))

/-- Rows 23..45 of the continuous head clipped to [0, 1]. -/
def stdT (xT : Mat 161 16384) (W1 : Mat 161 256) (b1c : Mat 256 1) (WcT : Mat 46 256) (bcc : Mat 46 1)
    (c : Fin 23) (n : Fin 16384) : EReal :=
  min oneW (max zeroW (contT xT W1 b1c WcT bcc ⟨23 + c.val, by omega⟩ n))

/-! ## The two arrangements are one network -/

section Join

variable {x : Mat 16384 161} {W1 : Mat 161 256} {b1 : Row 256}
variable {xT : Mat 161 16384} {b1c : Mat 256 1}
variable (hx : ∀ (k : Fin 161) (n : Fin 16384), xT (ix2 k n) = x (ix2 n k))
variable (hb1 : ∀ j : Fin 256, b1c (ix2 j (0 : Fin 1)) = b1 (ix1 j))

include hx hb1 in
/-- The hidden layer: each product x(n,k)·W1(k,j) with its factors exchanged. -/
theorem hiddenT_eq (j : Fin 256) (n : Fin 16384) : hiddenT xT W1 b1c j n = hidden x W1 b1 n j := by
  unfold hiddenT hidden
  rw [hb1 j]
  refine congrArg (fun s => leaky (s + b1 (ix1 j))) (Finset.sum_congr rfl fun k _ => ?_)
  rw [hx k n, mul_comm]

include hx hb1 in
/-- The discrete head: each product hidden(n,j)·Wd(j,d) with its factors exchanged. -/
theorem discT_eq {Wd : Mat 256 132} {bd : Row 132} {WdT : Mat 132 256} {bdc : Mat 132 1}
    (hW : ∀ (d : Fin 132) (j : Fin 256), WdT (ix2 d j) = Wd (ix2 j d))
    (hb : ∀ d : Fin 132, bdc (ix2 d (0 : Fin 1)) = bd (ix1 d)) (d : Fin 132) (n : Fin 16384) :
    discT xT W1 b1c WdT bdc d n = disc x W1 b1 Wd bd n d := by
  unfold discT disc
  rw [hb d]
  refine congrArg (fun s => s + bd (ix1 d)) (Finset.sum_congr rfl fun j _ => ?_)
  rw [hW d j, hiddenT_eq hx hb1 j n, mul_comm]

include hx hb1 in
/-- The continuous head before clipping, likewise. -/
theorem contT_eq {Wc : Mat 256 46} {bc : Row 46} {WcT : Mat 46 256} {bcc : Mat 46 1}
    (hW : ∀ (c : Fin 46) (j : Fin 256), WcT (ix2 c j) = Wc (ix2 j c))
    (hb : ∀ c : Fin 46, bcc (ix2 c (0 : Fin 1)) = bc (ix1 c)) (c : Fin 46) (n : Fin 16384) :
    contT xT W1 b1c WcT bcc c n = cont x W1 b1 Wc bc n c := by
  unfold contT cont
  rw [hb c]
  refine congrArg (fun s => s + bc (ix1 c)) (Finset.sum_congr rfl fun j _ => ?_)
  rw [hW c j, hiddenT_eq hx hb1 j n, mul_comm]

include hx hb1 in
theorem meanT_eq {Wc : Mat 256 46} {bc : Row 46} {WcT : Mat 46 256} {bcc : Mat 46 1}
    (hW : ∀ (c : Fin 46) (j : Fin 256), WcT (ix2 c j) = Wc (ix2 j c))
    (hb : ∀ c : Fin 46, bcc (ix2 c (0 : Fin 1)) = bc (ix1 c)) (c : Fin 23) (n : Fin 16384) :
    meanT xT W1 b1c WcT bcc c n = mean x W1 b1 Wc bc n c := by
  unfold meanT mean
  rw [contT_eq hx hb1 hW hb]

include hx hb1 in
theorem stdT_eq {Wc : Mat 256 46} {bc : Row 46} {WcT : Mat 46 256} {bcc : Mat 46 1}
    (hW : ∀ (c : Fin 46) (j : Fin 256), WcT (ix2 c j) = Wc (ix2 j c))
    (hb : ∀ c : Fin 46, bcc (ix2 c (0 : Fin 1)) = bc (ix1 c)) (c : Fin 23) (n : Fin 16384) :
    stdT xT W1 b1c WcT bcc c n = std x W1 b1 Wc bc n c := by
  unfold stdT std
  rw [contT_eq hx hb1 hW hb]

end Join

end Cert.Mlp

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibDotTN.lean ====
/-
  A matrix product that contracts the FIRST axis of both operands, [K,M] × [K,N] → [M,N] (the left operand used
  transposed: xᵀ·w), accumulated into the zero matrix and read at (i, j) over the extended reals:
  the sum over k of l(k,i) · r(k,j).
-/
import Idealize.ShloMosaic.PureOps.Ideal.Laws
import Idealize.ShloMosaic.Lib.ValueIdx

namespace Idealize.ShloMosaic.ValueIdx

open Idealize.ShloMosaic

/-- A `tpu.matmul` with dimension numbers ⟨[0],[0],[1],[1],[],[]⟩ into the zero accumulator, at `(i, j)`, is
    `∑ k, l (k, i) * r (k, j)`. The record is any with those dimension numbers (`hr`, `hs`: its contraction shape has one
    axis of extent `K`; for a printed record both are `rfl`). -/
theorem matmul_tn_zero_apply {M N K : ℕ} {φ₁ φ₂ : FTy}
    (D : DotDims (⟨2, ![K, M]⟩ : Shape) ⟨2, ![K, N]⟩ ⟨2, ![M, N]⟩)
    (hlc : D.lhsContracting = [0]) (hrc : D.rhsContracting = [0])
    (hln : D.lhsNonContracting = [1]) (hrn : D.rhsNonContracting = [1])
    (hlb : D.lhsBatch = []) (hrb : D.rhsBatch = [])
    (hr : D.contr.rank = 1) (hs : D.contr.size ⟨0, by omega⟩ = K)
    (prec : Option ContractPrecision)
    (l : FVec Ideal (⟨2, ![K, M]⟩ : Shape) φ₁) (r : FVec Ideal (⟨2, ![K, N]⟩ : Shape) φ₂) (i : Fin M) (j : Fin N) :
    FloatOps.matmul D prec l r (constant (⟨2, ![M, N]⟩ : Shape) .f32 0x00000000#32) (ix2 i j)
      = ∑ k : Fin K, l (ix2 k i) * r (ix2 k j) := by
  rw [Ideal.matmul_constant_zero_apply, ← Equiv.sum_comp (contrEquiv1 D K hr hs).symm]
  refine Finset.sum_congr rfl fun k _ => ?_
  have hk := contrEquiv1_symm_val D K hr hs k
  have key : ∀ (p : ℕ) (hp : p < (⟨2, ![M, N]⟩ : Shape).rank) (q : Fin 2), p = q.val → ((ix2 i j) ⟨p, hp⟩).val = ((ix2 i j) q).val :=
    fun p hp q h => by subst h; rfl
  have el : D.lhsIdx (ix2 i j) ((contrEquiv1 D K hr hs).symm k) = ix2 k i := funext fun a => Fin.ext (by
    match a with
    | ⟨0, _⟩ => exact (D.lhsIdx_val_of_single hlc _ _).trans hk
    | ⟨1, _⟩ =>
      unfold DotDims.lhsIdx
      rw [dif_neg (by rw [hlb]; exact List.not_mem_nil), dif_pos (by rw [hln]; exact List.mem_singleton.mpr rfl)]
      simp only [Fin.val_cast]
      exact key _ _ 0 (by simp [hlb, hln]))
  have er : D.rhsIdx (ix2 i j) ((contrEquiv1 D K hr hs).symm k) = ix2 k j := funext fun a => Fin.ext (by
    match a with
    | ⟨0, _⟩ => exact (D.rhsIdx_val_of_single hrc _ _).trans hk
    | ⟨1, _⟩ =>
      unfold DotDims.rhsIdx
      rw [dif_neg (by rw [hrb]; exact List.not_mem_nil), dif_pos (by rw [hrn]; exact List.mem_singleton.mpr rfl)]
      simp only [Fin.val_cast]
      exact key _ _ 1 (by simp [hlb, hln, hrn]))
  rw [el, er]

end Idealize.ShloMosaic.ValueIdx
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  What the kernel body computes from the blocks it loads, read entry by entry.

  One grid step holds a block of 4096 batch columns. From W1 : [161, 256], the block xb : [161, 4096] of xᵀ and the bias
  column b1c : [256, 1] the body forms the rectified hidden block
      hb(j, p) = leaky( Σ_k W1(k,j) · xb(k,p) + b1c(j,0) )
  (a product contracting the FIRST axis of both operands, then a column broadcast, a comparison with zero and a select),
  and from it the two heads, each a plain rows-by-columns product with the transposed weights on the left plus a bias
  column:
      discb(d, p) = Σ_j WdT(d,j) · hb(j,p) + bdc(d,0)          contb(c, p) = Σ_j WcT(c,j) · hb(j,p) + bcc(c,0).
  The stored blocks are discb, the rows 0..22 of contb clipped to [-1, 1], and the rows 23..45 clipped to [0, 1]; a
  clip is a minimum with the upper word of a maximum with the lower word, and a row slice at offset o reads row o + c.
-/
import proofs.«164362_g38886633898314_cont_8to1_b_1584_25_alg».proof.Proof.Gen.KernelIdeal.Skeleton
import proofs.«164362_g38886633898314_cont_8to1_b_1584_25_alg».proof.Proof.Spec
import proofs.«164362_g38886633898314_cont_8to1_b_1584_25_alg».proof.Proof.LibDot
import proofs.«164362_g38886633898314_cont_8to1_b_1584_25_alg».proof.Proof.LibDotTN
import proofs.«164362_g38886633898314_cont_8to1_b_1584_25_alg».proof.Proof.LibColumn
import Idealize.ShloMosaic.Lib.Pipeline.Value
import Idealize.ShloMosaic.Lib.ValueLayout

noncomputable section

namespace Cert.Mlp.Body

open Cert.KernelIdeal Cert.KernelIdeal.Gen Idealize.ShloMosaic Idealize.ShloMosaic.ValueIdx Cert.Mlp
open scoped BigOperators

/-- The record of this product contracts axis 1 of its left operand with axis 0 of its right one. -/
theorem plain_disc : Cert.LibDot.Plain dot_S132x256_S256x4096_S132x4096_1_0_0_1_n_n where
  hrank := rfl
  hs := rfl
  hl0 := fun j k => by
    unfold DotDims.lhsIdx
    rw [dif_neg (show ¬(0 : Fin S132x256.rank) ∈ dot_S132x256_S256x4096_S132x4096_1_0_0_1_n_n.lhsBatch by decide),
      dif_pos (show (0 : Fin S132x256.rank) ∈ dot_S132x256_S256x4096_S132x4096_1_0_0_1_n_n.lhsNonContracting by decide)]
    rfl
  hl1 := fun j k => dot_S132x256_S256x4096_S132x4096_1_0_0_1_n_n.lhsIdx_val_of_single rfl j k
  hr0 := fun j k => dot_S132x256_S256x4096_S132x4096_1_0_0_1_n_n.rhsIdx_val_of_single rfl j k
  hr1 := fun j k => by
    unfold DotDims.rhsIdx
    rw [dif_neg (show ¬(1 : Fin S256x4096.rank) ∈ dot_S132x256_S256x4096_S132x4096_1_0_0_1_n_n.rhsBatch by decide),
      dif_pos (show (1 : Fin S256x4096.rank) ∈ dot_S132x256_S256x4096_S132x4096_1_0_0_1_n_n.rhsNonContracting by decide)]
    rfl

/-- The record of this product contracts axis 1 of its left operand with axis 0 of its right one. -/
theorem plain_cont : Cert.LibDot.Plain dot_S46x256_S256x4096_S46x4096_1_0_0_1_n_n where
  hrank := rfl
  hs := rfl
  hl0 := fun j k => by
    unfold DotDims.lhsIdx
    rw [dif_neg (show ¬(0 : Fin S46x256.rank) ∈ dot_S46x256_S256x4096_S46x4096_1_0_0_1_n_n.lhsBatch by decide),
      dif_pos (show (0 : Fin S46x256.rank) ∈ dot_S46x256_S256x4096_S46x4096_1_0_0_1_n_n.lhsNonContracting by decide)]
    rfl
  hl1 := fun j k => dot_S46x256_S256x4096_S46x4096_1_0_0_1_n_n.lhsIdx_val_of_single rfl j k
  hr0 := fun j k => dot_S46x256_S256x4096_S46x4096_1_0_0_1_n_n.rhsIdx_val_of_single rfl j k
  hr1 := fun j k => by
    unfold DotDims.rhsIdx
    rw [dif_neg (show ¬(1 : Fin S256x4096.rank) ∈ dot_S46x256_S256x4096_S46x4096_1_0_0_1_n_n.rhsBatch by decide),
      dif_pos (show (1 : Fin S256x4096.rank) ∈ dot_S46x256_S256x4096_S46x4096_1_0_0_1_n_n.rhsNonContracting by decide)]
    rfl

variable (v0 : Vec Ideal S161x256 .f32) (v1 : Vec Ideal S161x4096 .f32) (v4 : Vec Ideal S256x1 .f32)

/-- The rectified hidden block at (j, p). -/
theorem hidden_block (j : Fin 256) (p : Fin 4096) :
    k0_pay2 (F := Ideal) v0 v1 v4 (ix2 j p)
      = leaky ((∑ k : Fin 161, v0 (ix2 k j) * v1 (ix2 k p)) + v4 (ix2 j (0 : Fin 1))) := by
  have hm := matmul_tn_zero_apply (φ₁ := .f32) (φ₂ := .f32) dot_S161x256_S161x4096_S256x4096_0_0_1_1_n_n rfl rfl rfl rfl rfl rfl rfl rfl none v0 v1 j p
  have hb := broadcastTo_a1_ab_apply v4 broadcasts_S256x1_S256x4096 j p
  rw [← hm, ← hb]
  unfold k0_pay2 leaky
  rw [shapeCast_self, shapeCast_self]
  rfl

/-- The discrete head's block at (d, p). -/
theorem disc_block (v13 : Vec Ideal S132x256 .f32) (v16 : Vec Ideal S132x1 .f32) (d : Fin 132) (p : Fin 4096) :
    k0_pay3 (F := Ideal) v0 v1 v4 v13 v16 (ix2 d p)
      = (∑ j : Fin 256, v13 (ix2 d j) * k0_pay2 (F := Ideal) v0 v1 v4 (ix2 j p)) + v16 (ix2 d (0 : Fin 1)) := by
  have hm := Cert.LibDot.matmul_ix2 (φ₁ := .f32) (φ₂ := .f32) plain_disc none v13 (k0_pay2 (F := Ideal) v0 v1 v4) d p
  have hb := broadcastTo_a1_ab_apply v16 broadcasts_S132x1_S132x4096 d p
  rw [← hm, ← hb]
  unfold k0_pay3
  rw [shapeCast_self, shapeCast_self]
  rfl

variable (v21 : Vec Ideal S46x256 .f32) (v24 : Vec Ideal S46x1 .f32)

/-- The continuous head's block, before clipping, at (c, p). -/
theorem cont_block (c : Fin 46) (p : Fin 4096) :
    k0_pay4 (F := Ideal) v0 v1 v4 v21 v24 (ix2 c p)
      = (∑ j : Fin 256, v21 (ix2 c j) * k0_pay2 (F := Ideal) v0 v1 v4 (ix2 j p)) + v24 (ix2 c (0 : Fin 1)) := by
  have hm := Cert.LibDot.matmul_ix2 (φ₁ := .f32) (φ₂ := .f32) plain_cont none v21 (k0_pay2 (F := Ideal) v0 v1 v4) c p
  have hb := broadcastTo_a1_ab_apply v24 broadcasts_S46x1_S46x4096 c p
  rw [← hm, ← hb]
  unfold k0_pay4
  rw [shapeCast_self, shapeCast_self]
  rfl

/-- The first stored clip: rows 0..22 of the continuous head between -1 and 1. -/
theorem mean_block (c : Fin 23) (p : Fin 4096) :
    k0_pay5 (F := Ideal) v0 v1 v4 v21 v24 (ix2 c p)
      = min oneW (max negOneW (k0_pay4 (F := Ideal) v0 v1 v4 v21 v24 (ix2 (⟨c.val, by omega⟩ : Fin 46) p))) := by
  have hs := slice2_axis0_apply 0 (k0_pay4 (F := Ideal) v0 v1 v4 v21 v24) slices_S46x4096_o0_0_S23x4096 c p
    (⟨c.val, by omega⟩ : Fin 46) (Nat.zero_add _).symm
  rw [← hs]
  rfl

/-- The second stored clip: rows 23..45 of a continuous-head block between 0 and 1. -/
theorem std_block (v27 : FVec Ideal S46x4096 .f32) (c : Fin 23) (p : Fin 4096) :
    k0_pay1 (F := Ideal) v27 (ix2 c p)
      = min oneW (max zeroW (v27 (ix2 (⟨23 + c.val, by omega⟩ : Fin 46) p))) := by
  have hs := slice2_axis0_apply 23 v27 slices_S46x4096_o23_0_S23x4096 c p (⟨23 + c.val, by omega⟩ : Fin 46) rfl
  rw [← hs]
  rfl

end Cert.Mlp.Body

end
-- ==== Proof.Point.lean ====
/-
  One grid step of the kernel, stated over variables: if the loaded blocks read the whole arrays where grid step T says —
  the block of xᵀ its columns T·4096 .. T·4096 + 4095, every other operand the whole array — then each stored block,
  at a block entry y, is the batch-last network at the array entry i with the same row and column T·4096 + y's column.
-/
import proofs.«164362_g38886633898314_cont_8to1_b_1584_25_alg».proof.Proof.Payload

noncomputable section

namespace Cert.Mlp.Body

open Cert.KernelIdeal Cert.KernelIdeal.Gen Idealize.ShloMosaic Idealize.ShloMosaic.ValueIdx Cert.Mlp
open scoped BigOperators

variable (A0 : Mat 161 16384) (A1 : Mat 161 256) (A2 : Mat 256 1)
variable (b1 : Vec Ideal S161x256 .f32) (b0 : Vec Ideal S161x4096 .f32) (b2 : Vec Ideal S256x1 .f32)
variable (T : ℕ)
variable (h0 : ∀ (k : Fin 161) (p : Fin 4096) (n : Fin 16384), n.val = T * 4096 + p.val → b0 (ix2 k p) = A0 (ix2 k n))
variable (h1 : ∀ (k : Fin 161) (j : Fin 256), b1 (ix2 k j) = A1 (ix2 k j))
variable (h2 : ∀ j : Fin 256, b2 (ix2 j (0 : Fin 1)) = A2 (ix2 j (0 : Fin 1)))

include h0 h1 h2 in
/-- The hidden block at (j, p) is the hidden layer at unit j, sample T·4096 + p. -/
theorem hidden_point (j : Fin 256) (p : Fin 4096) (n : Fin 16384) (hn : n.val = T * 4096 + p.val) :
    k0_pay2 (F := Ideal) b1 b0 b2 (ix2 j p) = hiddenT A0 A1 A2 j n := by
  rw [hidden_block]
  unfold hiddenT
  rw [h2 j]
  refine congrArg (fun s => leaky (s + A2 (ix2 j (0 : Fin 1)))) (Finset.sum_congr rfl fun k _ => ?_)
  rw [h1 k j, h0 k p n hn]

include h0 h1 h2 in
/-- The discrete head's stored block is a block of the batch-last discrete head. -/
theorem disc_point (A3 : Mat 132 256) (A4 : Mat 132 1) (b3 : Vec Ideal S132x256 .f32) (b4 : Vec Ideal S132x1 .f32)
    (h3 : ∀ (d : Fin 132) (j : Fin 256), b3 (ix2 d j) = A3 (ix2 d j))
    (h4 : ∀ d : Fin 132, b4 (ix2 d (0 : Fin 1)) = A4 (ix2 d (0 : Fin 1)))
    (y : S132x4096.Idx) (i : S132x16384.Idx) (hi0 : (i 0).val = (y 0).val) (hi1 : (i 1).val = T * 4096 + (y 1).val) :
    k0_pay3 (F := Ideal) b1 b0 b2 b3 b4 y = discT A0 A1 A2 A3 A4 (i 0) (i 1) := by
  obtain ⟨d, p, rfl⟩ : ∃ (d : Fin 132) (p : Fin 4096), y = ix2 d p := ⟨y 0, y 1, eq_ix2 y⟩
  obtain ⟨d', n, rfl⟩ : ∃ (d' : Fin 132) (n : Fin 16384), i = ix2 d' n := ⟨i 0, i 1, eq_ix2 i⟩
  obtain rfl : d' = d := Fin.ext hi0
  show _ = discT A0 A1 A2 A3 A4 d' n
  rw [disc_block]
  unfold discT
  rw [h4 d']
  refine congrArg (fun s => s + A4 (ix2 d' (0 : Fin 1))) (Finset.sum_congr rfl fun j _ => ?_)
  rw [h3 d' j, hidden_point A0 A1 A2 b1 b0 b2 T h0 h1 h2 j p n hi1]

variable (A5 : Mat 46 256) (A6 : Mat 46 1) (b5 : Vec Ideal S46x256 .f32) (b6 : Vec Ideal S46x1 .f32)
variable (h5 : ∀ (c : Fin 46) (j : Fin 256), b5 (ix2 c j) = A5 (ix2 c j))
variable (h6 : ∀ c : Fin 46, b6 (ix2 c (0 : Fin 1)) = A6 (ix2 c (0 : Fin 1)))

include h0 h1 h2 h5 h6 in
/-- The continuous head's block, before clipping, at (c, p). -/
theorem cont_point (c : Fin 46) (p : Fin 4096) (n : Fin 16384) (hn : n.val = T * 4096 + p.val) :
    k0_pay4 (F := Ideal) b1 b0 b2 b5 b6 (ix2 c p) = contT A0 A1 A2 A5 A6 c n := by
  rw [cont_block]
  unfold contT
  rw [h6 c]
  refine congrArg (fun s => s + A6 (ix2 c (0 : Fin 1))) (Finset.sum_congr rfl fun j _ => ?_)
  rw [h5 c j, hidden_point A0 A1 A2 b1 b0 b2 T h0 h1 h2 j p n hn]

include h0 h1 h2 h5 h6 in
/-- The first clipped block is a block of the batch-last mean. -/
theorem mean_point (y : S23x4096.Idx) (i : S23x16384.Idx) (hi0 : (i 0).val = (y 0).val)
    (hi1 : (i 1).val = T * 4096 + (y 1).val) :
    k0_pay5 (F := Ideal) b1 b0 b2 b5 b6 y = meanT A0 A1 A2 A5 A6 (i 0) (i 1) := by
  obtain ⟨c, p, rfl⟩ : ∃ (c : Fin 23) (p : Fin 4096), y = ix2 c p := ⟨y 0, y 1, eq_ix2 y⟩
  obtain ⟨c', n, rfl⟩ : ∃ (c' : Fin 23) (n : Fin 16384), i = ix2 c' n := ⟨i 0, i 1, eq_ix2 i⟩
  obtain rfl : c' = c := Fin.ext hi0
  show _ = meanT A0 A1 A2 A5 A6 c' n
  rw [mean_block]
  unfold meanT
  rw [cont_point A0 A1 A2 b1 b0 b2 T h0 h1 h2 A5 A6 b5 b6 h5 h6 _ p n hi1]

include h0 h1 h2 h5 h6 in
/-- The second clipped block is a block of the batch-last std. -/
theorem std_point (y : S23x4096.Idx) (i : S23x16384.Idx) (hi0 : (i 0).val = (y 0).val)
    (hi1 : (i 1).val = T * 4096 + (y 1).val) :
    k0_pay1 (F := Ideal) (k0_pay4 (F := Ideal) b1 b0 b2 b5 b6) y = stdT A0 A1 A2 A5 A6 (i 0) (i 1) := by
  obtain ⟨c, p, rfl⟩ : ∃ (c : Fin 23) (p : Fin 4096), y = ix2 c p := ⟨y 0, y 1, eq_ix2 y⟩
  obtain ⟨c', n, rfl⟩ : ∃ (c' : Fin 23) (n : Fin 16384), i = ix2 c' n := ⟨i 0, i 1, eq_ix2 i⟩
  obtain rfl : c' = c := Fin.ext hi0
  show _ = stdT A0 A1 A2 A5 A6 c' n
  rw [std_block]
  unfold stdT
  rw [cont_point A0 A1 A2 b1 b0 b2 T h0 h1 h2 A5 A6 b5 b6 h5 h6 _ p n hi1]

end Cert.Mlp.Body

end
-- ==== Proof.Blocks.lean ====
/-
  From blocks to arrays: what the kernel's three output arrays hold after its four grid steps.

  Grid step t stages the columns t·4096 .. t·4096 + 4095 of xᵀ and of each output, and the whole of every other operand;
  the relations between the printed index maps are decided once over the four steps. What step t writes back to an
  output is then block t of ONE whole-array function — the batch-last discrete head, mean or std of the arrays as the
  region finds them — and since the four blocks tile each output array (column n lies in step n / 4096), the array
  after the run is that function.
-/
import proofs.«164362_g38886633898314_cont_8to1_b_1584_25_alg».proof.Proof.Gen.KernelIdeal.Frame
import proofs.«164362_g38886633898314_cont_8to1_b_1584_25_alg».proof.Proof.Point
import Idealize.ShloMosaic.Lib.Pipeline.Value

noncomputable section

namespace Cert.Mlp.Kernel

open Cert.KernelIdeal Cert.KernelIdeal.Gen Idealize.ShloMosaic Idealize.ShloMosaic.TcCoe Idealize.SL.Sem
open Idealize.ShloMosaic.ValueIdx Cert.Mlp Cert.Mlp.Body
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the four grid steps: the block of xᵀ and the three output blocks move with the step
    along the batch axis, every other window stays at block (0, 0). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val
    ∧ win0_8.index t (0 : Fin 2) = 0 ∧ win0_8.index t (1 : Fin 2) = t.val
    ∧ win0_9.index t (0 : Fin 2) = 0 ∧ win0_9.index t (1 : Fin 2) = t.val :=
  (by decide +kernel : ∀ t : Fin grid0.N, _)

/-! ## The input windows' blocks, read through the arrays -/

/-- The block of xᵀ at grid step t holds the columns t·4096 + p. -/
theorem blk0 (c : Dev nD) (t : Fin cfg0.N) (k : Fin 161) (p : Fin 4096) (n : Fin 16384) (hn : n.val = t.val * 4096 + p.val) :
    iblk (F := Ideal) m c 0 t (ix2 k p) = V m c main_call0_v0 (ix2 k n) := by
  obtain ⟨e00, e01, e10, e11, e20, e21, e30, e31, e40, e41, e50, e51, e60, e61, e70, e71, e80, e81, e90, e91⟩ := idx_facts t
  have e : ((cfg0.win 0).blk t).view.emb (ix2 k p) = ix2 k n := funext fun a => Fin.ext (by
    match a with
    | ⟨0, _⟩ => show win0_0.index t (0 : Fin 2) * 161 + 1 * k.val = k.val; omega
    | ⟨1, _⟩ => show win0_0.index t (1 : Fin 2) * 4096 + 1 * p.val = n.val; omega)
  show V m c main_call0_v0 (((cfg0.win 0).blk t).view.emb (ix2 k p)) = _
  rw [e]

/-- Window 1 stages its whole array at every grid step. -/
theorem blk1 (c : Dev nD) (t : Fin cfg0.N) (p : Fin 161) (q : Fin 256) :
    iblk (F := Ideal) m c 1 t (ix2 p q) = V m c main_arg1 (ix2 p q) := by
  obtain ⟨e00, e01, e10, e11, e20, e21, e30, e31, e40, e41, e50, e51, e60, e61, e70, e71, e80, e81, e90, e91⟩ := idx_facts t
  have e : ((cfg0.win 1).blk t).view.emb (ix2 p q) = ix2 p q := funext fun a => Fin.ext (by
    match a with
    | ⟨0, _⟩ => show win0_1.index t (0 : Fin 2) * 161 + 1 * p.val = p.val; omega
    | ⟨1, _⟩ => show win0_1.index t (1 : Fin 2) * 256 + 1 * q.val = q.val; omega)
  show V m c main_arg1 (((cfg0.win 1).blk t).view.emb (ix2 p q)) = _
  rw [e]

/-- Window 2 stages its whole array at every grid step. -/
theorem blk2 (c : Dev nD) (t : Fin cfg0.N) (p : Fin 256) (q : Fin 1) :
    iblk (F := Ideal) m c 2 t (ix2 p q) = V m c main_call0_v3 (ix2 p q) := by
  obtain ⟨e00, e01, e10, e11, e20, e21, e30, e31, e40, e41, e50, e51, e60, e61, e70, e71, e80, e81, e90, e91⟩ := idx_facts t
  have e : ((cfg0.win 2).blk t).view.emb (ix2 p q) = ix2 p q := funext fun a => Fin.ext (by
    match a with
    | ⟨0, _⟩ => show win0_2.index t (0 : Fin 2) * 256 + 1 * p.val = p.val; omega
    | ⟨1, _⟩ => show win0_2.index t (1 : Fin 2) * 1 + 1 * q.val = q.val; omega)
  show V m c main_call0_v3 (((cfg0.win 2).blk t).view.emb (ix2 p q)) = _
  rw [e]

/-- Window 3 stages its whole array at every grid step. -/
theorem blk3 (c : Dev nD) (t : Fin cfg0.N) (p : Fin 132) (q : Fin 256) :
    iblk (F := Ideal) m c 3 t (ix2 p q) = V m c main_call0_v1 (ix2 p q) := by
  obtain ⟨e00, e01, e10, e11, e20, e21, e30, e31, e40, e41, e50, e51, e60, e61, e70, e71, e80, e81, e90, e91⟩ := idx_facts t
  have e : ((cfg0.win 3).blk t).view.emb (ix2 p q) = ix2 p q := funext fun a => Fin.ext (by
    match a with
    | ⟨0, _⟩ => show win0_3.index t (0 : Fin 2) * 132 + 1 * p.val = p.val; omega
    | ⟨1, _⟩ => show win0_3.index t (1 : Fin 2) * 256 + 1 * q.val = q.val; omega)
  show V m c main_call0_v1 (((cfg0.win 3).blk t).view.emb (ix2 p q)) = _
  rw [e]

/-- Window 4 stages its whole array at every grid step. -/
theorem blk4 (c : Dev nD) (t : Fin cfg0.N) (p : Fin 132) (q : Fin 1) :
    iblk (F := Ideal) m c 4 t (ix2 p q) = V m c main_call0_v4 (ix2 p q) := by
  obtain ⟨e00, e01, e10, e11, e20, e21, e30, e31, e40, e41, e50, e51, e60, e61, e70, e71, e80, e81, e90, e91⟩ := idx_facts t
  have e : ((cfg0.win 4).blk t).view.emb (ix2 p q) = ix2 p q := funext fun a => Fin.ext (by
    match a with
    | ⟨0, _⟩ => show win0_4.index t (0 : Fin 2) * 132 + 1 * p.val = p.val; omega
    | ⟨1, _⟩ => show win0_4.index t (1 : Fin 2) * 1 + 1 * q.val = q.val; omega)
  show V m c main_call0_v4 (((cfg0.win 4).blk t).view.emb (ix2 p q)) = _
  rw [e]

/-- Window 5 stages its whole array at every grid step. -/
theorem blk5 (c : Dev nD) (t : Fin cfg0.N) (p : Fin 46) (q : Fin 256) :
    iblk (F := Ideal) m c 5 t (ix2 p q) = V m c main_call0_v2 (ix2 p q) := by
  obtain ⟨e00, e01, e10, e11, e20, e21, e30, e31, e40, e41, e50, e51, e60, e61, e70, e71, e80, e81, e90, e91⟩ := idx_facts t
  have e : ((cfg0.win 5).blk t).view.emb (ix2 p q) = ix2 p q := funext fun a => Fin.ext (by
    match a with
    | ⟨0, _⟩ => show win0_5.index t (0 : Fin 2) * 46 + 1 * p.val = p.val; omega
    | ⟨1, _⟩ => show win0_5.index t (1 : Fin 2) * 256 + 1 * q.val = q.val; omega)
  show V m c main_call0_v2 (((cfg0.win 5).blk t).view.emb (ix2 p q)) = _
  rw [e]

/-- Window 6 stages its whole array at every grid step. -/
theorem blk6 (c : Dev nD) (t : Fin cfg0.N) (p : Fin 46) (q : Fin 1) :
    iblk (F := Ideal) m c 6 t (ix2 p q) = V m c main_call0_v5 (ix2 p q) := by
  obtain ⟨e00, e01, e10, e11, e20, e21, e30, e31, e40, e41, e50, e51, e60, e61, e70, e71, e80, e81, e90, e91⟩ := idx_facts t
  have e : ((cfg0.win 6).blk t).view.emb (ix2 p q) = ix2 p q := funext fun a => Fin.ext (by
    match a with
    | ⟨0, _⟩ => show win0_6.index t (0 : Fin 2) * 46 + 1 * p.val = p.val; omega
    | ⟨1, _⟩ => show win0_6.index t (1 : Fin 2) * 1 + 1 * q.val = q.val; omega)
  show V m c main_call0_v5 (((cfg0.win 6).blk t).view.emb (ix2 p q)) = _
  rw [e]

/-! ## Output window 7: disc -/

/-- An index of the array is in grid step t's block iff each coordinate is in the block's range on its axis. -/
theorem mem_blk7 (t : Fin cfg0.N) (i : S132x16384.Idx) :
    i ∈ ((cfg0.win 7).blk t).view.set ↔ ∀ a : Fin 2, win0_7.index t a * S132x4096.size a ≤ (i a).val ∧ (i a).val < win0_7.index t a * S132x4096.size a + S132x4096.size a := by
  show i ∈ ((View.whole main_call0_v6_0).slice (win0_7.rect t)).set ↔ _
  rw [View.set_slice_whole, Rect.mem_set_unit]
  exact Iff.rfl

/-- Every index of the array lies in the block of the grid step its column falls in. -/
theorem disc_cover (i : S132x16384.Idx) :
    ∃ t : Fin cfg0.N, (cfg0.win 7).flush t = true ∧ i ∈ ((cfg0.win 7).blk t).view.set := by
  have hi0 : (i 0).val < 132 := (i 0).isLt
  have hi1 : (i 1).val < 16384 := (i 1).isLt
  obtain ⟨t, ht⟩ : ∃ t : Fin cfg0.N, t.val = (i 1).val / 4096 :=
    ⟨⟨(i 1).val / 4096, by have := N_0; show _ < grid0.N; omega⟩, rfl⟩
  obtain ⟨e00, e01, e10, e11, e20, e21, e30, e31, e40, e41, e50, e51, e60, e61, e70, e71, e80, e81, e90, e91⟩ := idx_facts t
  refine ⟨t, flush0_7 t, ?_⟩
  rw [mem_blk7]
  intro a
  match a with
  | ⟨0, _⟩ => show win0_7.index t (0 : Fin 2) * 132 ≤ (i 0).val ∧ (i 0).val < win0_7.index t (0 : Fin 2) * 132 + 132; omega
  | ⟨1, _⟩ => show win0_7.index t (1 : Fin 2) * 4096 ≤ (i 1).val ∧ (i 1).val < win0_7.index t (1 : Fin 2) * 4096 + 4096; omega

/-- What the array holds after the run, as one function of the arrays the region finds. -/
def discArr (c : Dev nD) : S132x16384.Idx → EReal := fun i =>
  discT (V m c main_call0_v0) (V m c main_arg1) (V m c main_call0_v3) (V m c main_call0_v1) (V m c main_call0_v4) (i 0) (i 1)

/-- What grid step t writes back is block t of that function. -/
theorem disc_flushed (c : Dev nD) (t : Fin cfg0.N) :
    (dats m 0 c).flushed 7 t = ((cfg0.win 7).blk t).view.read (Elt Ideal) (discArr m c) := by
  show (cfg0.win 7).cut (grid0.coords t) ((dats m 0 c).after 7 t) = _
  rw [after0_7]
  unfold out0_7
  rw [View.canon_unit_zero hz]
  simp only [View.ld_unit_zero (S := S161x256) hz, View.ld_unit_zero (S := S161x4096) hz, View.ld_unit_zero (S := S256x1) hz, View.ld_unit_zero (S := S132x256) hz, View.ld_unit_zero (S := S132x1) hz]
  obtain ⟨e00, e01, e10, e11, e20, e21, e30, e31, e40, e41, e50, e51, e60, e61, e70, e71, e80, e81, e90, e91⟩ := idx_facts t
  refine funext fun (y : S132x4096.Idx) => ?_
  exact disc_point (V m c main_call0_v0) (V m c main_arg1) (V m c main_call0_v3) (iblk m c 1 t) (iblk m c 0 t) (iblk m c 2 t) t.val (blk0 m c t) (blk1 m c t) (fun j => blk2 m c t j 0) (V m c main_call0_v1) (V m c main_call0_v4) (iblk m c 3 t) (iblk m c 4 t) (blk3 m c t) (fun d => blk4 m c t d 0) y (((cfg0.win 7).blk t).view.emb y)
    (by show win0_7.index t (0 : Fin 2) * 132 + 1 * (y 0).val = (y 0).val; omega)
    (by show win0_7.index t (1 : Fin 2) * 4096 + 1 * (y 1).val = t.val * 4096 + (y 1).val; omega)

/-- The blocks tile the array, so after the run it is that function everywhere. -/
theorem disc_final (c : Dev nD) : (dats m 0 c).arrAt 7 cfg0.N = discArr m c :=
  (dats m 0 c).arrAt_eq_of_cover 7 (discArr m c) (fun t _ => disc_flushed m c t) disc_cover

/-! ## Output window 8: mean -/

/-- An index of the array is in grid step t's block iff each coordinate is in the block's range on its axis. -/
theorem mem_blk8 (t : Fin cfg0.N) (i : S23x16384.Idx) :
    i ∈ ((cfg0.win 8).blk t).view.set ↔ ∀ a : Fin 2, win0_8.index t a * S23x4096.size a ≤ (i a).val ∧ (i a).val < win0_8.index t a * S23x4096.size a + S23x4096.size a := by
  show i ∈ ((View.whole main_call0_v6_1).slice (win0_8.rect t)).set ↔ _
  rw [View.set_slice_whole, Rect.mem_set_unit]
  exact Iff.rfl

/-- Every index of the array lies in the block of the grid step its column falls in. -/
theorem mean_cover (i : S23x16384.Idx) :
    ∃ t : Fin cfg0.N, (cfg0.win 8).flush t = true ∧ i ∈ ((cfg0.win 8).blk t).view.set := by
  have hi0 : (i 0).val < 23 := (i 0).isLt
  have hi1 : (i 1).val < 16384 := (i 1).isLt
  obtain ⟨t, ht⟩ : ∃ t : Fin cfg0.N, t.val = (i 1).val / 4096 :=
    ⟨⟨(i 1).val / 4096, by have := N_0; show _ < grid0.N; omega⟩, rfl⟩
  obtain ⟨e00, e01, e10, e11, e20, e21, e30, e31, e40, e41, e50, e51, e60, e61, e70, e71, e80, e81, e90, e91⟩ := idx_facts t
  refine ⟨t, flush0_8 t, ?_⟩
  rw [mem_blk8]
  intro a
  match a with
  | ⟨0, _⟩ => show win0_8.index t (0 : Fin 2) * 23 ≤ (i 0).val ∧ (i 0).val < win0_8.index t (0 : Fin 2) * 23 + 23; omega
  | ⟨1, _⟩ => show win0_8.index t (1 : Fin 2) * 4096 ≤ (i 1).val ∧ (i 1).val < win0_8.index t (1 : Fin 2) * 4096 + 4096; omega

/-- What the array holds after the run, as one function of the arrays the region finds. -/
def meanArr (c : Dev nD) : S23x16384.Idx → EReal := fun i =>
  meanT (V m c main_call0_v0) (V m c main_arg1) (V m c main_call0_v3) (V m c main_call0_v2) (V m c main_call0_v5) (i 0) (i 1)

/-- What grid step t writes back is block t of that function. -/
theorem mean_flushed (c : Dev nD) (t : Fin cfg0.N) :
    (dats m 0 c).flushed 8 t = ((cfg0.win 8).blk t).view.read (Elt Ideal) (meanArr m c) := by
  show (cfg0.win 8).cut (grid0.coords t) ((dats m 0 c).after 8 t) = _
  rw [after0_8]
  unfold out0_8
  rw [View.canon_unit_zero hz]
  simp only [View.ld_unit_zero (S := S161x256) hz, View.ld_unit_zero (S := S161x4096) hz, View.ld_unit_zero (S := S256x1) hz, View.ld_unit_zero (S := S46x256) hz, View.ld_unit_zero (S := S46x1) hz]
  obtain ⟨e00, e01, e10, e11, e20, e21, e30, e31, e40, e41, e50, e51, e60, e61, e70, e71, e80, e81, e90, e91⟩ := idx_facts t
  refine funext fun (y : S23x4096.Idx) => ?_
  exact mean_point (V m c main_call0_v0) (V m c main_arg1) (V m c main_call0_v3) (iblk m c 1 t) (iblk m c 0 t) (iblk m c 2 t) t.val (blk0 m c t) (blk1 m c t) (fun j => blk2 m c t j 0) (V m c main_call0_v2) (V m c main_call0_v5) (iblk m c 5 t) (iblk m c 6 t) (blk5 m c t) (fun q => blk6 m c t q 0) y (((cfg0.win 8).blk t).view.emb y)
    (by show win0_8.index t (0 : Fin 2) * 23 + 1 * (y 0).val = (y 0).val; omega)
    (by show win0_8.index t (1 : Fin 2) * 4096 + 1 * (y 1).val = t.val * 4096 + (y 1).val; omega)

/-- The blocks tile the array, so after the run it is that function everywhere. -/
theorem mean_final (c : Dev nD) : (dats m 0 c).arrAt 8 cfg0.N = meanArr m c :=
  (dats m 0 c).arrAt_eq_of_cover 8 (meanArr m c) (fun t _ => mean_flushed m c t) mean_cover

/-! ## Output window 9: std -/

/-- An index of the array is in grid step t's block iff each coordinate is in the block's range on its axis. -/
theorem mem_blk9 (t : Fin cfg0.N) (i : S23x16384.Idx) :
    i ∈ ((cfg0.win 9).blk t).view.set ↔ ∀ a : Fin 2, win0_9.index t a * S23x4096.size a ≤ (i a).val ∧ (i a).val < win0_9.index t a * S23x4096.size a + S23x4096.size a := by
  show i ∈ ((View.whole main_call0_v6_2).slice (win0_9.rect t)).set ↔ _
  rw [View.set_slice_whole, Rect.mem_set_unit]
  exact Iff.rfl

/-- Every index of the array lies in the block of the grid step its column falls in. -/
theorem std_cover (i : S23x16384.Idx) :
    ∃ t : Fin cfg0.N, (cfg0.win 9).flush t = true ∧ i ∈ ((cfg0.win 9).blk t).view.set := by
  have hi0 : (i 0).val < 23 := (i 0).isLt
  have hi1 : (i 1).val < 16384 := (i 1).isLt
  obtain ⟨t, ht⟩ : ∃ t : Fin cfg0.N, t.val = (i 1).val / 4096 :=
    ⟨⟨(i 1).val / 4096, by have := N_0; show _ < grid0.N; omega⟩, rfl⟩
  obtain ⟨e00, e01, e10, e11, e20, e21, e30, e31, e40, e41, e50, e51, e60, e61, e70, e71, e80, e81, e90, e91⟩ := idx_facts t
  refine ⟨t, flush0_9 t, ?_⟩
  rw [mem_blk9]
  intro a
  match a with
  | ⟨0, _⟩ => show win0_9.index t (0 : Fin 2) * 23 ≤ (i 0).val ∧ (i 0).val < win0_9.index t (0 : Fin 2) * 23 + 23; omega
  | ⟨1, _⟩ => show win0_9.index t (1 : Fin 2) * 4096 ≤ (i 1).val ∧ (i 1).val < win0_9.index t (1 : Fin 2) * 4096 + 4096; omega

/-- What the array holds after the run, as one function of the arrays the region finds. -/
def stdArr (c : Dev nD) : S23x16384.Idx → EReal := fun i =>
  stdT (V m c main_call0_v0) (V m c main_arg1) (V m c main_call0_v3) (V m c main_call0_v2) (V m c main_call0_v5) (i 0) (i 1)

/-- What grid step t writes back is block t of that function. -/
theorem std_flushed (c : Dev nD) (t : Fin cfg0.N) :
    (dats m 0 c).flushed 9 t = ((cfg0.win 9).blk t).view.read (Elt Ideal) (stdArr m c) := by
  show (cfg0.win 9).cut (grid0.coords t) ((dats m 0 c).after 9 t) = _
  rw [after0_9]
  unfold out0_9
  rw [View.canon_unit_zero hz]
  simp only [View.ld_unit_zero (S := S161x256) hz, View.ld_unit_zero (S := S161x4096) hz, View.ld_unit_zero (S := S256x1) hz, View.ld_unit_zero (S := S46x256) hz, View.ld_unit_zero (S := S46x1) hz]
  obtain ⟨e00, e01, e10, e11, e20, e21, e30, e31, e40, e41, e50, e51, e60, e61, e70, e71, e80, e81, e90, e91⟩ := idx_facts t
  refine funext fun (y : S23x4096.Idx) => ?_
  exact std_point (V m c main_call0_v0) (V m c main_arg1) (V m c main_call0_v3) (iblk m c 1 t) (iblk m c 0 t) (iblk m c 2 t) t.val (blk0 m c t) (blk1 m c t) (fun j => blk2 m c t j 0) (V m c main_call0_v2) (V m c main_call0_v5) (iblk m c 5 t) (iblk m c 6 t) (blk5 m c t) (fun q => blk6 m c t q 0) y (((cfg0.win 9).blk t).view.emb y)
    (by show win0_9.index t (0 : Fin 2) * 23 + 1 * (y 0).val = (y 0).val; omega)
    (by show win0_9.index t (1 : Fin 2) * 4096 + 1 * (y 1).val = t.val * 4096 + (y 1).val; omega)

/-- The blocks tile the array, so after the run it is that function everywhere. -/
theorem std_final (c : Dev nD) : (dats m 0 c).arrAt 9 cfg0.N = stdArr m c :=
  (dats m 0 c).arrAt_eq_of_cover 9 (stdArr m c) (fun t _ => std_flushed m c t) std_cover

end Cert.Mlp.Kernel

end
-- ==== Proof.HostSide.lean ====
/-
  Around the kernel: the host's transposes and reshapes before the region, and its three transposes after it.

  Before the region the host writes xᵀ, Wdᵀ and Wcᵀ (transposes of x, Wd, Wc) and the three biases as columns (row-major
  reshapes [a] → [a, 1]); W1 is passed as it is. So the batch-last network of the arrays the region finds is, entry by
  entry, the batch-first network of the arguments with its two indices exchanged (the specification's joining law).
  After the region each output array is transposed back, which exchanges the indices once more: the three results are
  the discrete head, the mean and the std of the arguments.
-/
import proofs.«164362_g38886633898314_cont_8to1_b_1584_25_alg».proof.Proof.Blocks
import proofs.«164362_g38886633898314_cont_8to1_b_1584_25_alg».proof.Proof.LibColumn
import Idealize.ShloMosaic.Lib.StableHlo.Run
import Idealize.ShloMosaic.Lib.ValueLayout

noncomputable section

namespace Cert.Mlp.Kernel

open Cert.KernelIdeal Cert.KernelIdeal.Gen Idealize.ShloMosaic Idealize.ShloMosaic.TcCoe Idealize.SL.Sem
open Idealize.ShloMosaic.StableHlo Idealize.ShloMosaic.ValueIdx Cert.Mlp
open Idealize.ShloMosaic.Pipeline (Dat)

variable (m : (ℓ : Loc nD τ sig) → Buf (Elt Ideal) ℓ) (ρ : Dev nD → PrngReg)

/-! ## The arrays the region finds -/

/-- The region finds xᵀ. -/
theorem V_xT (c : Dev nD) : (V m c main_call0_v0 : S161x16384.Idx → EReal)
    = transpose S161x16384 [1, 0] (m ((c.tc : Thread nD τ).loc main_arg0)) transposes_S16384x161_S161x16384_1_0 := by
  show StableHlo.after hostOps0 (fun b => m (c, b)) (Proc.devRef .tc main_call0_v0) = _
  after_results
  rfl

/-- The region finds Wdᵀ. -/
theorem V_WdT (c : Dev nD) : (V m c main_call0_v1 : S132x256.Idx → EReal)
    = transpose S132x256 [1, 0] (m ((c.tc : Thread nD τ).loc main_arg3)) transposes_S256x132_S132x256_1_0 := by
  show StableHlo.after hostOps0 (fun b => m (c, b)) (Proc.devRef .tc main_call0_v1) = _
  after_results
  rfl

/-- The region finds Wcᵀ. -/
theorem V_WcT (c : Dev nD) : (V m c main_call0_v2 : S46x256.Idx → EReal)
    = transpose S46x256 [1, 0] (m ((c.tc : Thread nD τ).loc main_arg5)) transposes_S256x46_S46x256_1_0 := by
  show StableHlo.after hostOps0 (fun b => m (c, b)) (Proc.devRef .tc main_call0_v2) = _
  after_results
  rfl

/-- The region finds b1 as a column. -/
theorem V_b1c (c : Dev nD) : (V m c main_call0_v3 : S256x1.Idx → EReal)
    = shapeCast S256x1 (m ((c.tc : Thread nD τ).loc main_arg2)) shapeCasts_S256_S256x1 := by
  show StableHlo.after hostOps0 (fun b => m (c, b)) (Proc.devRef .tc main_call0_v3) = _
  after_results
  rfl

/-- The region finds bd as a column. -/
theorem V_bdc (c : Dev nD) : (V m c main_call0_v4 : S132x1.Idx → EReal)
    = shapeCast S132x1 (m ((c.tc : Thread nD τ).loc main_arg4)) shapeCasts_S132_S132x1 := by
  show StableHlo.after hostOps0 (fun b => m (c, b)) (Proc.devRef .tc main_call0_v4) = _
  after_results
  rfl

/-- The region finds bc as a column. -/
theorem V_bcc (c : Dev nD) : (V m c main_call0_v5 : S46x1.Idx → EReal)
    = shapeCast S46x1 (m ((c.tc : Thread nD τ).loc main_arg6)) shapeCasts_S46_S46x1 := by
  show StableHlo.after hostOps0 (fun b => m (c, b)) (Proc.devRef .tc main_call0_v5) = _
  after_results
  rfl

theorem xT_apply (c : Dev nD) (k : Fin 161) (n : Fin 16384) :
    V m c main_call0_v0 (ix2 k n) = (m ((c.tc : Thread nD τ).loc main_arg0)) (ix2 n k) := by
  rw [V_xT]; exact transpose_ix2_apply _ _ k n

theorem WdT_apply (c : Dev nD) (d : Fin 132) (j : Fin 256) :
    V m c main_call0_v1 (ix2 d j) = (m ((c.tc : Thread nD τ).loc main_arg3)) (ix2 j d) := by
  rw [V_WdT]; exact transpose_ix2_apply _ _ d j

theorem WcT_apply (c : Dev nD) (q : Fin 46) (j : Fin 256) :
    V m c main_call0_v2 (ix2 q j) = (m ((c.tc : Thread nD τ).loc main_arg5)) (ix2 j q) := by
  rw [V_WcT]; exact transpose_ix2_apply _ _ q j

theorem b1c_apply (c : Dev nD) (j : Fin 256) :
    V m c main_call0_v3 (ix2 j (0 : Fin 1)) = (m ((c.tc : Thread nD τ).loc main_arg2)) (ix1 j) := by
  rw [V_b1c]; exact shapeCast_a_a1_apply _ _ j 0

theorem bdc_apply (c : Dev nD) (d : Fin 132) :
    V m c main_call0_v4 (ix2 d (0 : Fin 1)) = (m ((c.tc : Thread nD τ).loc main_arg4)) (ix1 d) := by
  rw [V_bdc]; exact shapeCast_a_a1_apply _ _ d 0

theorem bcc_apply (c : Dev nD) (q : Fin 46) :
    V m c main_call0_v5 (ix2 q (0 : Fin 1)) = (m ((c.tc : Thread nD τ).loc main_arg6)) (ix1 q) := by
  rw [V_bcc]; exact shapeCast_a_a1_apply _ _ q 0

/-! ## The output arrays, in the arguments -/

/-- The first output array is the discrete head with its indices exchanged. -/
theorem disc_arr (c : Dev nD) :
    discArr m c = fun i : S132x16384.Idx => disc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 1) (i 0) := by
  funext i
  unfold discArr
  rw [V_main_arg1]
  exact discT_eq (xT_apply m c) (b1c_apply m c) (WdT_apply m c) (bdc_apply m c) (i 0) (i 1)

/-- The second output array is the mean with its indices exchanged. -/
theorem mean_arr (c : Dev nD) :
    meanArr m c = fun i : S23x16384.Idx => mean (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (i 1) (i 0) := by
  funext i
  unfold meanArr
  rw [V_main_arg1]
  exact meanT_eq (xT_apply m c) (b1c_apply m c) (WcT_apply m c) (bcc_apply m c) (i 0) (i 1)

/-- The third output array is the std with its indices exchanged. -/
theorem std_arr (c : Dev nD) :
    stdArr m c = fun i : S23x16384.Idx => std (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (i 1) (i 0) := by
  funext i
  unfold stdArr
  rw [V_main_arg1]
  exact stdT_eq (xT_apply m c) (b1c_apply m c) (WcT_apply m c) (bcc_apply m c) (i 0) (i 1)

/-! ## The transposes after the region -/

/-- The result is the transpose of the array output window 7 leaves. -/
theorem tail_disc (c : Dev nD) : Pipeline.afterTail₀ cfgs (dats m) 0 (V0 m) [hostOps1] c main_v0_0
    = transpose S16384x132 [1, 0] ((dats m 0 c).arrAt 7 cfg0.N) transposes_S132x16384_S16384x132_1_0 := by
  unfold Pipeline.afterTail₀
  show StableHlo.after hostOps1 _ (Proc.devRef .tc main_v0_0) = _
  after_results
  exact congrArg (fun x => transpose S16384x132 [1, 0] x transposes_S132x16384_S16384x132_1_0)
    (Pipeline.withArrays_arr (cfgs 0).spec launch0.win.arr_inj c (V0 m c) (fun w => (dats m 0 c).arrAt w (cfgs 0).N) 7)

/-- The result is the transpose of the array output window 8 leaves. -/
theorem tail_mean (c : Dev nD) : Pipeline.afterTail₀ cfgs (dats m) 0 (V0 m) [hostOps1] c main_v0_1
    = transpose S16384x23 [1, 0] ((dats m 0 c).arrAt 8 cfg0.N) transposes_S23x16384_S16384x23_1_0 := by
  unfold Pipeline.afterTail₀
  show StableHlo.after hostOps1 _ (Proc.devRef .tc main_v0_1) = _
  after_results
  exact congrArg (fun x => transpose S16384x23 [1, 0] x transposes_S23x16384_S16384x23_1_0)
    (Pipeline.withArrays_arr (cfgs 0).spec launch0.win.arr_inj c (V0 m c) (fun w => (dats m 0 c).arrAt w (cfgs 0).N) 8)

/-- The result is the transpose of the array output window 9 leaves. -/
theorem tail_std (c : Dev nD) : Pipeline.afterTail₀ cfgs (dats m) 0 (V0 m) [hostOps1] c main_v0_2
    = transpose S16384x23 [1, 0] ((dats m 0 c).arrAt 9 cfg0.N) transposes_S23x16384_S16384x23_1_0 := by
  unfold Pipeline.afterTail₀
  show StableHlo.after hostOps1 _ (Proc.devRef .tc main_v0_2) = _
  after_results
  exact congrArg (fun x => transpose S16384x23 [1, 0] x transposes_S23x16384_S16384x23_1_0)
    (Pipeline.withArrays_arr (cfgs 0).spec launch0.win.arr_inj c (V0 m c) (fun w => (dats m 0 c).arrAt w (cfgs 0).N) 9)

/-- The first result is the discrete head of the arguments. -/
theorem disc_result (c : Dev nD) : Pipeline.afterTail₀ cfgs (dats m) 0 (V0 m) [hostOps1] c main_v0_0
    = fun i : S16384x132.Idx => disc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1) := by
  rw [tail_disc, disc_final, disc_arr]
  funext i
  obtain ⟨n, d, rfl⟩ : ∃ (n : Fin 16384) (d : Fin 132), i = ix2 n d := ⟨i 0, i 1, eq_ix2 i⟩
  exact transpose_ix2_apply _ _ n d

/-- The second result is the mean of the arguments. -/
theorem mean_result (c : Dev nD) : Pipeline.afterTail₀ cfgs (dats m) 0 (V0 m) [hostOps1] c main_v0_1
    = fun i : S16384x23.Idx => mean (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (i 0) (i 1) := by
  rw [tail_mean, mean_final, mean_arr]
  funext i
  obtain ⟨n, q, rfl⟩ : ∃ (n : Fin 16384) (q : Fin 23), i = ix2 n q := ⟨i 0, i 1, eq_ix2 i⟩
  exact transpose_ix2_apply _ _ n q

/-- The third result is the std of the arguments. -/
theorem std_result (c : Dev nD) : Pipeline.afterTail₀ cfgs (dats m) 0 (V0 m) [hostOps1] c main_v0_2
    = fun i : S16384x23.Idx => std (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (i 0) (i 1) := by
  rw [tail_std, std_final, std_arr]
  funext i
  obtain ⟨n, q, rfl⟩ : ∃ (n : Fin 16384) (q : Fin 23), i = ix2 n q := ⟨i 0, i 1, eq_ix2 i⟩
  exact transpose_ix2_apply _ _ n q

/-! ## The run, read -/

/-- Every weakly fair execution of the kernel program ends with its three results at the discrete head, the mean and the
    std of the argument arrays, and the arguments as they were. -/
theorem run : θ_run defs (onTc (τ := τ) (main (F := Ideal))) ⟨m, fun _ => 0, ρ⟩ fun r => ∀ c : Dev nD,
      r.2.mem ((c.tc : Thread nD τ).loc main_v0_0) = (fun i : S16384x132.Idx => disc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1))
      ∧ r.2.mem ((c.tc : Thread nD τ).loc main_v0_1) = (fun i : S16384x23.Idx => mean (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (i 0) (i 1))
      ∧ r.2.mem ((c.tc : Thread nD τ).loc main_v0_2) = (fun i : S16384x23.Idx => std (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨
      ((h c).2 main_v0_0 (Pipeline.mem_restRefs_of main_v0_0 (by decide) (by decide))).trans (disc_result m c),
      ((h c).2 main_v0_1 (Pipeline.mem_restRefs_of main_v0_1 (by decide) (by decide))).trans (mean_result m c),
      ((h c).2 main_v0_2 (Pipeline.mem_restRefs_of main_v0_2 (by decide) (by decide))).trans (std_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Mlp.Kernel

end
-- ==== Proof.RefSide.lean ====
/-
  The reference program, one operation at a time, is the network of the specification in its batch-first arrangement.

  Each result of the reference is read at an index (n, ·) through the chain of its operations: a clip is a minimum of a
  maximum against broadcast constants; a slice of the continuous head reads column c or 23 + c; a head is a matrix
  product Σ_j hidden(n,j)·W(j,·) plus its bias broadcast over the batch; the hidden layer is the rectifier (a comparison
  with zero choosing between the pre-activation and the slope times it) of Σ_k x(n,k)·W1(k,j) + b1(j). The index
  functions of the layout operations compute coordinate by coordinate.
-/
import proofs.«164362_g38886633898314_cont_8to1_b_1584_25_alg».proof.Proof.Gen.ReferenceIdeal.Read
import proofs.«164362_g38886633898314_cont_8to1_b_1584_25_alg».proof.Proof.Spec

noncomputable section

namespace Cert.Mlp.Ref

open Cert.ReferenceIdeal Cert.ReferenceIdeal.Read Idealize.ShloMosaic Idealize.ShloMosaic.ValueIdx Cert.Mlp

variable (x0 : (⟨S16384x161, .f32⟩ : BufTy).Contents (Elt Ideal)) (x1 : (⟨S161x256, .f32⟩ : BufTy).Contents (Elt Ideal))
  (x2 : (⟨S256, .f32⟩ : BufTy).Contents (Elt Ideal))

/-- The rectified hidden layer of the reference at (n, j). -/
theorem hidden_ref (n : Fin 16384) (j : Fin 256) :
    val_main_v8 (F := Ideal) x0 x1 x2 (ix2 n j) = hidden x0 x1 x2 n j := by
  have el : ∀ k : Fin 161, lidx_main_v0 (ix2 n j) k = ix2 n k := fun k => funext fun a => Fin.ext (by
    match a with | ⟨0, _⟩ => rfl | ⟨1, _⟩ => rfl)
  have er : ∀ k : Fin 161, ridx_main_v0 (ix2 n j) k = ix2 k j := fun k => funext fun a => Fin.ext (by
    match a with | ⟨0, _⟩ => rfl | ⟨1, _⟩ => rfl)
  have eb : idx_main_v1 (idx_main_v2 (ix2 n j)) = ix1 j := funext fun a => Fin.ext (by
    match a with | ⟨0, _⟩ => rfl)
  simp only [val_main_v8_apply, val_main_v5_apply, val_main_v7_apply, val_main_v3_apply, val_main_v0_apply,
    val_main_v2_apply, val_main_v1_apply, val_main_v4_apply, val_main_v6_apply, val_main_cst_apply,
    val_main_cst_0_apply, el, er, eb]
  rfl

/-- The discrete head of the reference is the specification's. -/
theorem disc_ref (x3 : (⟨S256x132, .f32⟩ : BufTy).Contents (Elt Ideal)) (x4 : (⟨S132, .f32⟩ : BufTy).Contents (Elt Ideal)) :
    val_main_v12 (F := Ideal) x0 x1 x2 x3 x4 = fun i => disc x0 x1 x2 x3 x4 (i 0) (i 1) := by
  funext i
  obtain ⟨n, d, rfl⟩ : ∃ (n : Fin 16384) (d : Fin 132), i = ix2 n d := ⟨i 0, i 1, eq_ix2 i⟩
  have el : ∀ k : Fin 256, lidx_main_v9 (ix2 n d) k = ix2 n k := fun k => funext fun a => Fin.ext (by
    match a with | ⟨0, _⟩ => rfl | ⟨1, _⟩ => rfl)
  have er : ∀ k : Fin 256, ridx_main_v9 (ix2 n d) k = ix2 k d := fun k => funext fun a => Fin.ext (by
    match a with | ⟨0, _⟩ => rfl | ⟨1, _⟩ => rfl)
  have eb : idx_main_v10 (idx_main_v11 (ix2 n d)) = ix1 d := funext fun a => Fin.ext (by
    match a with | ⟨0, _⟩ => rfl)
  simp only [val_main_v12_apply, val_main_v9_apply, val_main_v11_apply, val_main_v10_apply, el, er, eb, hidden_ref]
  rfl

variable (x5 : (⟨S256x46, .f32⟩ : BufTy).Contents (Elt Ideal)) (x6 : (⟨S46, .f32⟩ : BufTy).Contents (Elt Ideal))

/-- The continuous head of the reference before the slices, at (n, c). -/
theorem cont_ref (n : Fin 16384) (c : Fin 46) :
    val_main_v16 (F := Ideal) x0 x1 x2 x5 x6 (ix2 n c) = cont x0 x1 x2 x5 x6 n c := by
  have el : ∀ k : Fin 256, lidx_main_v13 (ix2 n c) k = ix2 n k := fun k => funext fun a => Fin.ext (by
    match a with | ⟨0, _⟩ => rfl | ⟨1, _⟩ => rfl)
  have er : ∀ k : Fin 256, ridx_main_v13 (ix2 n c) k = ix2 k c := fun k => funext fun a => Fin.ext (by
    match a with | ⟨0, _⟩ => rfl | ⟨1, _⟩ => rfl)
  have eb : idx_main_v14 (idx_main_v15 (ix2 n c)) = ix1 c := funext fun a => Fin.ext (by
    match a with | ⟨0, _⟩ => rfl)
  simp only [val_main_v16_apply, val_main_v13_apply, val_main_v15_apply, val_main_v14_apply, el, er, eb, hidden_ref]
  rfl

/-- The first clipped result of the reference is the specification's mean. -/
theorem mean_ref : val_main_v19 (F := Ideal) x0 x1 x2 x5 x6 = fun i => mean x0 x1 x2 x5 x6 (i 0) (i 1) := by
  funext i
  obtain ⟨n, c, rfl⟩ : ∃ (n : Fin 16384) (c : Fin 23), i = ix2 n c := ⟨i 0, i 1, eq_ix2 i⟩
  have es : idx_main_v17 (ix2 n c) = ix2 n (⟨c.val, by omega⟩ : Fin 46) := funext fun a => Fin.ext (by
    match a with | ⟨0, _⟩ => rfl | ⟨1, _⟩ => rfl)
  simp only [val_main_v19_apply, val_main_call1_v4_apply, val_main_call1_v3_apply, val_main_cst_2_apply,
    val_main_call1_v2_apply, val_main_call1_v1_apply, val_main_call1_v0_apply, val_main_cst_1_apply,
    val_main_v17_apply, es, cont_ref]
  rfl

/-- The second clipped result of the reference is the specification's std. -/
theorem std_ref : val_main_v20 (F := Ideal) x0 x1 x2 x5 x6 = fun i => std x0 x1 x2 x5 x6 (i 0) (i 1) := by
  funext i
  obtain ⟨n, c, rfl⟩ : ∃ (n : Fin 16384) (c : Fin 23), i = ix2 n c := ⟨i 0, i 1, eq_ix2 i⟩
  have es : idx_main_v18 (ix2 n c) = ix2 n (⟨23 + c.val, by omega⟩ : Fin 46) := funext fun a => Fin.ext (by
    match a with | ⟨0, _⟩ => rfl | ⟨1, _⟩ => rfl)
  simp only [val_main_v20_apply, val_main_call2_v4_apply, val_main_call2_v3_apply, val_main_cst_4_apply,
    val_main_call2_v2_apply, val_main_call2_v1_apply, val_main_call2_v0_apply, val_main_cst_3_apply,
    val_main_v18_apply, es, cont_ref]
  rfl

end Cert.Mlp.Ref

end
-- ==== Proof.lean ====
/-
  A fused two-layer policy network against its plain reference, over the extended reals.

  Both programs compute, from x : [16384, 161], W1, b1, Wd, bd, Wc, bc,
      hidden = leaky(x·W1 + b1),   disc = hidden·Wd + bd,   cont = hidden·Wc + bc,
      mean = clip(cont[:, :23], -1, 1),   std = clip(cont[:, 23:], 0, 1),
  with the same float words for the slope and the clip bounds. The kernel works batch-last: the host transposes x, Wd and
  Wc and reshapes the biases to columns, one pallas_call walks the batch in four blocks of 4096 columns computing
  Wᵀ·hidden-style products with the weight as the left factor, and the host transposes the three outputs back. The
  reference works batch-first with the activations as the left factor. Entry by entry the two differ only in the order of
  the two factors of each product under the same sums, so they agree by commutativity of the product on the extended
  reals; no entry needs to be finite for that.

  The frames of the two kernel programs are the generated ones; the reference's frame is its generated run with the
  results dropped; the idealization rewrote nothing, so its conjunct is trivial; the value conjunct sets the kernel's run
  (Blocks, HostSide) beside the reference's (RefSide) at one common function of the arguments (Spec).
-/
import proofs.«164362_g38886633898314_cont_8to1_b_1584_25_alg».proof.Defs
import proofs.«164362_g38886633898314_cont_8to1_b_1584_25_alg».proof.Proof.Gen.Kernel
import proofs.«164362_g38886633898314_cont_8to1_b_1584_25_alg».proof.Proof.Gen.Kernel.Skeleton
import proofs.«164362_g38886633898314_cont_8to1_b_1584_25_alg».proof.Proof.Gen.Kernel.Launch
import proofs.«164362_g38886633898314_cont_8to1_b_1584_25_alg».proof.Proof.Gen.Kernel.Points
import proofs.«164362_g38886633898314_cont_8to1_b_1584_25_alg».proof.Proof.Gen.Kernel.Frame
import proofs.«164362_g38886633898314_cont_8to1_b_1584_25_alg».proof.Proof.Gen.KernelIdeal
import proofs.«164362_g38886633898314_cont_8to1_b_1584_25_alg».proof.Proof.Gen.KernelIdeal.Skeleton
import proofs.«164362_g38886633898314_cont_8to1_b_1584_25_alg».proof.Proof.Gen.KernelIdeal.Launch
import proofs.«164362_g38886633898314_cont_8to1_b_1584_25_alg».proof.Proof.Gen.KernelIdeal.Points
import proofs.«164362_g38886633898314_cont_8to1_b_1584_25_alg».proof.Proof.Gen.KernelIdeal.Frame
import proofs.«164362_g38886633898314_cont_8to1_b_1584_25_alg».proof.Proof.Gen.ReferenceIdeal
import proofs.«164362_g38886633898314_cont_8to1_b_1584_25_alg».proof.Proof.Gen.ReferenceIdeal.Run
import proofs.«164362_g38886633898314_cont_8to1_b_1584_25_alg».proof.Proof.Gen.ReferenceIdeal.Read
import proofs.«164362_g38886633898314_cont_8to1_b_1584_25_alg».proof.Proof.Gen.Pre_finite_inputs
import proofs.«164362_g38886633898314_cont_8to1_b_1584_25_alg».proof.Proof.HostSide
import proofs.«164362_g38886633898314_cont_8to1_b_1584_25_alg».proof.Proof.RefSide
import Idealize.ShloMosaic.Adequacy
import Idealize.ShloMosaic.Init

noncomputable section

namespace Cert.Proof

open Idealize.ShloMosaic Idealize.SL.Sem

/-- The word-level kernel program runs and keeps its arguments. -/
theorem frame_kernel [Cert.Kernel.Facts] [Cert.Pre_finite_inputs.Facts] : Cert.frame_Kernel :=
  fun m ρ _ => Cert.Kernel.Gen.frame m ρ

/-- So does the kernel program read over the extended reals. -/
theorem frame_kernelIdeal [Cert.KernelIdeal.Facts] [Cert.Pre_finite_inputs.Facts] : Cert.frame_KernelIdeal :=
  fun m ρ _ => Cert.KernelIdeal.Gen.frame m ρ

/-- The reference's run, its three results dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2.2.2)
    (Cert.ReferenceIdeal.Value.run (F := Ideal) m ρ)

/-- From memories that agree on the seven arguments both programs end with the discrete head, the mean and the std of
    those arguments: the kernel by its run read through blocks, host transposes and the joining law, the reference by
    its run read one operation at a time. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, _, Cert.Mlp.Kernel.run m ρ, ?_⟩
  refine (θ_run Cert.ReferenceIdeal.defs _ _).mono (fun _ h c => ?_)
    (Cert.ReferenceIdeal.Value.run (F := Ideal) m' ρ')
  obtain ⟨a0, a1, a2, a3, a4, a5, a6⟩ := hagree c
  obtain ⟨r0, r1, r2, k⟩ := h c
  refine ⟨r0.trans ?_, r1.trans ?_, r2.trans ?_, k⟩
  · rw [Cert.ReferenceIdeal.Read.val_main_v12_eq, Cert.Mlp.Ref.disc_ref, a0, a1, a2, a3, a4]
  · rw [Cert.ReferenceIdeal.Read.val_main_v19_eq, Cert.Mlp.Ref.mean_ref, a0, a1, a2, a5, a6]
  · rw [Cert.ReferenceIdeal.Read.val_main_v20_eq, Cert.Mlp.Ref.std_ref, a0, a1, a2, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
